-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x10 .f32) (main_arg12 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S64 .f32) (main_arg7 : FVec F S64x128 .f32) (main_arg8 : FVec F S128 .f32) (main_arg9 : FVec F S128x128 .f32) (main_arg10 : FVec F S128 .f32) (main_arg11 : FVec F S128x10 .f32) (main_arg12 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x128 .f32) (main_arg8 : FVec F S128 .f32) (main_arg9 : FVec F S128x128 .f32) (main_arg10 : FVec F S128 .f32) (main_arg11 : FVec F S128x10 .f32) (main_arg12 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x64 : Shape := ⟨2, ![1, 64]⟩
abbrev S5000x64 : Shape := ⟨2, ![5000, 64]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩
abbrev S50000x10 : Shape := ⟨2, ![50000, 10]⟩
abbrev S5000x10 : Shape := ⟨2, ![5000, 10]⟩
abbrev S850000x10 : Shape := ⟨2, ![850000, 10]⟩
abbrev S1x10 : Shape := ⟨2, ![1, 10]⟩
abbrev S500x10 : Shape := ⟨2, ![500, 10]⟩
abbrev S50000x1 : Shape := ⟨2, ![50000, 1]⟩
abbrev S500 : Shape := ⟨1, ![500]⟩
abbrev S500x1 : Shape := ⟨2, ![500, 1]⟩

abbrev nBuf : Space → Nat
  | .hbm => 125
  | .vmem => 41
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x10, .f32⟩
  | .hbm, ⟨12, _⟩ => ⟨S10, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S1x64, .f32⟩
  | .hbm, ⟨54, _⟩ => ⟨S1x64, .f32⟩
  | .hbm, ⟨55, _⟩ => ⟨S50000x64, .f32⟩
  | .hbm, ⟨56, _⟩ => ⟨S50000x128, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x1, .f32⟩
  | .hbm, ⟨67, _⟩ => ⟨S850000x128, .f32⟩
  | .hbm, ⟨68, _⟩ => ⟨S850000x128, .f32⟩
  | .hbm, ⟨69, _⟩ => ⟨S_, .f32⟩
  | .hbm, ⟨70, _⟩ => ⟨S50000x128, .f32⟩
  | .hbm, ⟨71, _⟩ => ⟨S850000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x1, .f32⟩
  | .hbm, ⟨86, _⟩ => ⟨S850000x128, .f32⟩
  | .hbm, ⟨87, _⟩ => ⟨S850000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x10, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x10, .f32⟩
  | .hbm, ⟨104, _⟩ => ⟨S850000x1, .f32⟩
  | .hbm, ⟨105, _⟩ => ⟨S850000x10, .f32⟩
  | .hbm, ⟨106, _⟩ => ⟨S850000x10, .f32⟩
  | .hbm, ⟨107, _⟩ => ⟨S_, .f32⟩
  | .hbm, ⟨108, _⟩ => ⟨S50000x10, .f32⟩
  | .hbm, ⟨109, _⟩ => ⟨S850000x1, .i32⟩
  | .hbm, ⟨110, _⟩ => ⟨S50000x10, .f32⟩
  | .hbm, ⟨111, _⟩ => ⟨S1x10, .f32⟩
  | .hbm, ⟨112, _⟩ => ⟨S50000x10, .f32⟩
  | .hbm, ⟨113, _⟩ => ⟨S_, .f32⟩
  | .hbm, ⟨114, _⟩ => ⟨S500x10, .f32⟩
  | .hbm, ⟨115, _⟩ => ⟨S50000x1, .i32⟩
  | .hbm, ⟨116, _⟩ => ⟨S500x10, .f32⟩
  | .hbm, ⟨117, _⟩ => ⟨S_, .f32⟩
  | .hbm, ⟨118, _⟩ => ⟨S50000, .f32⟩
  | .hbm, ⟨119, _⟩ => ⟨S_, .f32⟩
  | .hbm, ⟨120, _⟩ => ⟨S500, .f32⟩
  | .hbm, ⟨121, _⟩ => ⟨S50000x1, .i32⟩
  | .hbm, ⟨122, _⟩ => ⟨S500, .f32⟩
  | .hbm, ⟨123, _⟩ => ⟨S500x1, .f32⟩
  | .hbm, ⟨124, _⟩ => ⟨S500x10, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x10, .f32⟩
  | .local _ .vmem, ⟨31, _⟩ => ⟨S5000x10, .f32⟩
  | .local _ .vmem, ⟨32, _⟩ => ⟨S5000x10, .f32⟩
  | .local _ .vmem, ⟨33, _⟩ => ⟨S5000x10, .f32⟩
  | .local _ .vmem, ⟨34, _⟩ => ⟨S5000x10, .f32⟩
  | .local _ .vmem, ⟨35, _⟩ => ⟨S1x10, .f32⟩
  | .local _ .vmem, ⟨36, _⟩ => ⟨S5000x10, .f32⟩
  | .local _ .vmem, ⟨37, _⟩ => ⟨S5000x10, .f32⟩
  | .local _ .vmem, ⟨38, _⟩ => ⟨S500x10, .f32⟩
  | .local _ .vmem, ⟨39, _⟩ => ⟨S500x1, .f32⟩
  | .local _ .vmem, ⟨40, _⟩ => ⟨S500x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_14 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_cst_17 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg1_0 : Ref sig .tc := ⟨.vmem, 39, rfl⟩
abbrev cc7_stg2_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem1_0 : DmaSem sig := 39
abbrev cc7_sem2_0 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x10 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x10 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x10 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S500x10 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S500x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S500x10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x10_S128x10_0_0 : ∀ a, (![0, 0] : Fin 2 → Nat) a + S128x10.size a ≤ S128x10.size a
  h_S128x10 : 0 < S128x10.numel
  inb_S5000x10_S5000x10_0_0 : ∀ a, (![0, 0] : Fin 2 → Nat) a + S5000x10.size a ≤ S5000x10.size a
  h_S5000x10 : 0 < S5000x10.numel
  bcast_S850000x1_S850000x10_0_1 : S850000x1.BroadcastsInDim S850000x10 (![0, 1] : Fin 2 → Fin S850000x10.rank)
  bcast_S_S50000x10 : S_.BroadcastsInDim S50000x10 (![] : Fin 0 → Fin S50000x10.rank)
  shapeCasts_S10_S1x10 : S10.ShapeCasts S1x10
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  bcast_S_S500x10 : S_.BroadcastsInDim S500x10 (![] : Fin 0 → Fin S500x10.rank)
  bcast_S50000_S50000x1_0 : S50000.BroadcastsInDim S50000x1 (![0] : Fin 1 → Fin S50000x1.rank)
  bcast_S_S500 : S_.BroadcastsInDim S500 (![] : Fin 0 → Fin S500.rank)
  shapeCasts_S500_S500x1 : S500.ShapeCasts S500x1
  inb_S500x10_S500x10_0_0 : ∀ a, (![0, 0] : Fin 2 → Nat) a + S500x10.size a ≤ S500x10.size a
  h_S500x10 : 0 < S500x10.numel
  shapeCasts_S500x10_S500x10 : S500x10.ShapeCasts S500x10
  inb_S500x1_S500x1_0_0 : ∀ a, (![0, 0] : Fin 2 → Nat) a + S500x1.size a ≤ S500x1.size a
  h_S500x1 : 0 < S500x1.numel
  shapeCasts_S500x1_S500x1 : S500x1.ShapeCasts S500x1
  broadcasts_S500x1_S500x10 : S500x1.Broadcasts S500x10
  reduces_S500x10_S500 : S500x10.Reduces [1] S500
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x10_S5000x10_1_0_0_1_n_n_wf : DotDims.WF S5000x128 S128x10 S5000x10 [1] [0] [0] [1] [] []
  gather_S50000x10_S850000x1_S850000x10_1_0_n_n_0_1_110_wf : GatherDims.WF S50000x10 S850000x1 S850000x10 [1] [0] [] [0] [] 1 ![1, 10]
  scatter_S50000x10_S850000x1_S850000x10_1_0_0_1_wf : ScatterDims.WF S50000x10 S850000x1 S850000x10 [1] [0] [0] 1
  scatter_S500x10_S50000x1_S50000x10_1_0_0_1_wf : ScatterDims.WF S500x10 S50000x1 S50000x10 [1] [0] [0] 1
  scatter_S500_S50000x1_S50000_n_0_0_1_wf : ScatterDims.WF S500 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x10.size a ≤ S128x10.size a
  hwx5_1 : ∀ i : grid5.Coords, EltTy.bits .f32 = 32 ∨ (Rect.block (s := S128x10) S128x10.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x10.size a ≤ S50000x10.size a
  hwx5_2 : ∀ i : grid5.Coords, EltTy.bits .f32 = 32 ∨ (Rect.block (s := S50000x10) S5000x10.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x10.size a ≤ S50000x10.size a
  hwx6_0 : ∀ i : grid6.Coords, EltTy.bits .f32 = 32 ∨ (Rect.block (s := S50000x10) S5000x10.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x10.size a ≤ S1x10.size a
  hwx6_1 : ∀ i : grid6.Coords, EltTy.bits .f32 = 32 ∨ (Rect.block (s := S1x10) S1x10.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x10.size a ≤ S50000x10.size a
  hwx6_2 : ∀ i : grid6.Coords, EltTy.bits .f32 = 32 ∨ (Rect.block (s := S50000x10) S5000x10.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S500x10.size a ≤ S500x10.size a
  hwx7_0 : ∀ i : grid7.Coords, EltTy.bits .f32 = 32 ∨ (Rect.block (s := S500x10) S500x10.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S500x1.size a ≤ S500x1.size a
  hwx7_1 : ∀ i : grid7.Coords, EltTy.bits .f32 = 32 ∨ (Rect.block (s := S500x1) S500x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S500x10.size a ≤ S500x10.size a
  hwx7_2 : ∀ i : grid7.Coords, EltTy.bits .f32 = 32 ∨ (Rect.block (s := S500x10) S500x10.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S50000x10_S850000x1_S850000x10_1_0_n_n_0_1_110 : GatherDims S50000x10 S850000x1 S850000x10 where
  offsetDims := [1]
  collapsedSliceDims := [0]
  operandBatchingDims := []
  startIndicesBatchingDims := []
  startIndexMap := [0]
  indexVectorDim := 1
  sliceSizes := ![1, 10]
  wf := gather_S50000x10_S850000x1_S850000x10_1_0_n_n_0_1_110_wf
def scatter_S50000x10_S850000x1_S850000x10_1_0_0_1 : ScatterDims S50000x10 S850000x1 S850000x10 where
  updateWindowDims := [1]
  insertedWindowDims := [0]
  scatterDimsToOperandDims := [0]
  indexVectorDim := 1
  wf := scatter_S50000x10_S850000x1_S850000x10_1_0_0_1_wf
def scatter_S500x10_S50000x1_S50000x10_1_0_0_1 : ScatterDims S500x10 S50000x1 S50000x10 where
  updateWindowDims := [1]
  insertedWindowDims := [0]
  scatterDimsToOperandDims := [0]
  indexVectorDim := 1
  wf := scatter_S500x10_S50000x1_S50000x10_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S128x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S5000x10.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v78) S5000x10.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79) S1x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S5000x10.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v83) S500x10.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v88) S500x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v89) S500x10.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x64 : Shape := ⟨2, ![1, 64]⟩
abbrev S50000x128 : Shape := ⟨2, ![50000, 128]⟩
abbrev S850000x128 : Shape := ⟨2, ![850000, 128]⟩
abbrev S1x128 : Shape := ⟨2, ![1, 128]⟩
abbrev S50000x10 : Shape := ⟨2, ![50000, 10]⟩
abbrev S850000x10 : Shape := ⟨2, ![850000, 10]⟩
abbrev S1x10 : Shape := ⟨2, ![1, 10]⟩
abbrev S500x10 : Shape := ⟨2, ![500, 10]⟩
abbrev S50000x1 : Shape := ⟨2, ![50000, 1]⟩
abbrev S500 : Shape := ⟨1, ![500]⟩
abbrev S500x1 : Shape := ⟨2, ![500, 1]⟩

abbrev nBuf : Space → Nat
  | .hbm => 164
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x128, .f32⟩
  | 8 => ⟨S128, .f32⟩
  | 9 => ⟨S128x128, .f32⟩
  | 10 => ⟨S128, .f32⟩
  | 11 => ⟨S128x10, .f32⟩
  | 12 => ⟨S10, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x64, .f32⟩
  | 54 => ⟨S1x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S50000x128, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000x128, .f32⟩
  | 77 => ⟨S850000x1, .f32⟩
  | 78 => ⟨S850000x128, .f32⟩
  | 79 => ⟨S850000x128, .f32⟩
  | 80 => ⟨S_, .f32⟩
  | 81 => ⟨S50000x128, .f32⟩
  | 82 => ⟨S850000x1, .i32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x128, .f32⟩
  | 100 => ⟨S850000x1, .f32⟩
  | 101 => ⟨S850000x128, .f32⟩
  | 102 => ⟨S850000x128, .f32⟩
  | 103 => ⟨S_, .f32⟩
  | 104 => ⟨S50000x128, .f32⟩
  | 105 => ⟨S850000x1, .i32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x10, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x10, .f32⟩
  | 123 => ⟨S850000x1, .f32⟩
  | 124 => ⟨S850000x10, .f32⟩
  | 125 => ⟨S850000x10, .f32⟩
  | 126 => ⟨S_, .f32⟩
  | 127 => ⟨S50000x10, .f32⟩
  | _ => ⟨S50000x64, .f32⟩

abbrev hbmTy0_1 (i : Nat) : BufTy := match i % 128 with
  | 0 => ⟨S850000x1, .i32⟩
  | 1 => ⟨S50000x10, .f32⟩
  | 2 => ⟨S1x10, .f32⟩
  | 3 => ⟨S50000x10, .f32⟩
  | 4 => ⟨S50000x10, .f32⟩
  | 5 => ⟨S_, .f32⟩
  | 6 => ⟨S500x10, .f32⟩
  | 7 => ⟨S50000x1, .i32⟩
  | 8 => ⟨S500x10, .f32⟩
  | 9 => ⟨S_, .f32⟩
  | 10 => ⟨S50000, .f32⟩
  | 11 => ⟨S_, .f32⟩
  | 12 => ⟨S500, .f32⟩
  | 13 => ⟨S50000x1, .i32⟩
  | 14 => ⟨S500, .f32⟩
  | 15 => ⟨S_, .f32⟩
  | 16 => ⟨S500, .f32⟩
  | 17 => ⟨S500, .f32⟩
  | 18 => ⟨S500x1, .f32⟩
  | 19 => ⟨S500x10, .f32⟩
  | 20 => ⟨S500x10, .f32⟩
  | 21 => ⟨S_, .f32⟩
  | 22 => ⟨S500, .f32⟩
  | 23 => ⟨S_, .f32⟩
  | 24 => ⟨S500, .f32⟩
  | 25 => ⟨S500, .f32⟩
  | 26 => ⟨S500x1, .f32⟩
  | 27 => ⟨S500x10, .f32⟩
  | 28 => ⟨S500x10, .f32⟩
  | 29 => ⟨S500x10, .f32⟩
  | 30 => ⟨S_, .f32⟩
  | 31 => ⟨S500, .f32⟩
  | 32 => ⟨S500x1, .f32⟩
  | 33 => ⟨S500x1, .f32⟩
  | 34 => ⟨S500x10, .f32⟩
  | 35 => ⟨S500x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_cst : Ref sig .tc := ⟨.hbm, 57, rfl⟩
abbrev main_call1_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call2_cst : Ref sig .tc := ⟨.hbm, 64, rfl⟩
abbrev main_call2_v0 : Ref sig .tc := ⟨.hbm, 65, rfl⟩
abbrev main_v39 : Ref sig .tc := ⟨.hbm, 66, rfl⟩
abbrev main_v40 : Ref sig .tc := ⟨.hbm, 67, rfl⟩
abbrev main_c_6 : Ref sig .tc := ⟨.hbm, 68, rfl⟩
abbrev main_v41 : Ref sig .tc := ⟨.hbm, 69, rfl⟩
abbrev main_v42 : Ref sig .tc := ⟨.hbm, 70, rfl⟩
abbrev main_c_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call3_cst : Ref sig .tc := ⟨.hbm, 87, rfl⟩
abbrev main_call3_v0 : Ref sig .tc := ⟨.hbm, 88, rfl⟩
abbrev main_v57 : Ref sig .tc := ⟨.hbm, 89, rfl⟩
abbrev main_v58 : Ref sig .tc := ⟨.hbm, 90, rfl⟩
abbrev main_c_9 : Ref sig .tc := ⟨.hbm, 91, rfl⟩
abbrev main_v59 : Ref sig .tc := ⟨.hbm, 92, rfl⟩
abbrev main_v60 : Ref sig .tc := ⟨.hbm, 93, rfl⟩
abbrev main_c_10 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call4_cst : Ref sig .tc := ⟨.hbm, 110, rfl⟩
abbrev main_call4_v0 : Ref sig .tc := ⟨.hbm, 111, rfl⟩
abbrev main_v75 : Ref sig .tc := ⟨.hbm, 112, rfl⟩
abbrev main_v76 : Ref sig .tc := ⟨.hbm, 113, rfl⟩
abbrev main_c_12 : Ref sig .tc := ⟨.hbm, 114, rfl⟩
abbrev main_v77 : Ref sig .tc := ⟨.hbm, 115, rfl⟩
abbrev main_v78 : Ref sig .tc := ⟨.hbm, 116, rfl⟩
abbrev main_c_13 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_14 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_15 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_16 : Ref sig .tc := ⟨.hbm, 137, rfl⟩
abbrev main_v96 : Ref sig .tc := ⟨.hbm, 138, rfl⟩
abbrev main_cst_17 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_18 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_call5_cst : Ref sig .tc := ⟨.hbm, 149, rfl⟩
abbrev main_call5_v0 : Ref sig .tc := ⟨.hbm, 150, rfl⟩
abbrev main_call5_cst_0 : Ref sig .tc := ⟨.hbm, 151, rfl⟩
abbrev main_call5_v1 : Ref sig .tc := ⟨.hbm, 152, rfl⟩
abbrev main_call5_v2 : Ref sig .tc := ⟨.hbm, 153, rfl⟩
abbrev main_call5_v3 : Ref sig .tc := ⟨.hbm, 154, rfl⟩
abbrev main_call5_v4 : Ref sig .tc := ⟨.hbm, 155, rfl⟩
abbrev main_call5_v5 : Ref sig .tc := ⟨.hbm, 156, rfl⟩
abbrev main_call5_v6 : Ref sig .tc := ⟨.hbm, 157, rfl⟩
abbrev main_call5_cst_1 : Ref sig .tc := ⟨.hbm, 158, rfl⟩
abbrev main_call5_v7 : Ref sig .tc := ⟨.hbm, 159, rfl⟩
abbrev main_call5_v8 : Ref sig .tc := ⟨.hbm, 160, rfl⟩
abbrev main_call5_v9 : Ref sig .tc := ⟨.hbm, 161, rfl⟩
abbrev main_call5_v10 : Ref sig .tc := ⟨.hbm, 162, rfl⟩
abbrev main_v105 : Ref sig .tc := ⟨.hbm, 163, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x10_0_1 : S850000x1.BroadcastsInDim S850000x10 (![0, 1] : Fin 2 → Fin S850000x10.rank)
  bcast_S_S50000x10 : S_.BroadcastsInDim S50000x10 (![] : Fin 0 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S500x10 : S_.BroadcastsInDim S500x10 (![] : Fin 0 → Fin S500x10.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x10_0_1 : S500x1.BroadcastsInDim S500x10 (![0, 1] : Fin 2 → Fin S500x10.rank)
  reducesTo_S500x10_S500_d1 : S500x10.ReducesTo [1] S500
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x10_S50000x10_1_0_0_1_n_n_wf : DotDims.WF S50000x128 S128x10 S50000x10 [1] [0] [0] [1] [] []
  gather_S50000x10_S850000x1_S850000x10_1_0_n_n_0_1_110_wf : GatherDims.WF S50000x10 S850000x1 S850000x10 [1] [0] [] [0] [] 1 ![1, 10]
  scatter_S50000x10_S850000x1_S850000x10_1_0_0_1_wf : ScatterDims.WF S50000x10 S850000x1 S850000x10 [1] [0] [0] 1
  scatter_S500x10_S50000x1_S50000x10_1_0_0_1_wf : ScatterDims.WF S500x10 S50000x1 S50000x10 [1] [0] [0] 1
  scatter_S500_S50000x1_S50000_n_0_0_1_wf : ScatterDims.WF S500 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf
def gather_S50000x10_S850000x1_S850000x10_1_0_n_n_0_1_110 : GatherDims S50000x10 S850000x1 S850000x10 where
  offsetDims := [1]
  collapsedSliceDims := [0]
  operandBatchingDims := []
  startIndicesBatchingDims := []
  startIndexMap := [0]
  indexVectorDim := 1
  sliceSizes := ![1, 10]
  wf := gather_S50000x10_S850000x1_S850000x10_1_0_n_n_0_1_110_wf
def scatter_S50000x10_S850000x1_S850000x10_1_0_0_1 : ScatterDims S50000x10 S850000x1 S850000x10 where
  updateWindowDims := [1]
  insertedWindowDims := [0]
  scatterDimsToOperandDims := [0]
  indexVectorDim := 1
  wf := scatter_S50000x10_S850000x1_S850000x10_1_0_0_1_wf
def scatter_S500x10_S50000x1_S50000x10_1_0_0_1 : ScatterDims S500x10 S50000x1 S50000x10 where
  updateWindowDims := [1]
  insertedWindowDims := [0]
  scatterDimsToOperandDims := [0]
  indexVectorDim := 1
  wf := scatter_S500x10_S50000x1_S50000x10_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf

class Facts : Prop extends Facts₀ where

variable [Facts]
-- ==== Proof.KRun.lean ====
/-
  The idealized kernel's run with its result named. Every weakly fair execution of @main terminates without a
  fault, and in the final state the result array holds the contents of the last segment boundary (the fold of the
  host stretches and of the regions' write-backs over the launch memory), while the thirteen argument arrays are
  as launched. The argument is the launch theorem for a program of several regions over the segment list; the
  final thread state holds every unscoped buffer at the last boundary's contents, and the result array is one
  of them.
-/
import proofs.«159229_j86457691668579_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_out : θ_run defs (onTc (τ := τ) (main (F := F))) ⟨m, fun _ => 0, ρ⟩ (fun r => ∀ c : Dev nD,
      r.2.mem ((c.tc : Thread nD τ).loc main_v89) = W15 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v89 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩)

end Cert.KernelIdeal.KRun

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.Embed0.lean ====
/-
  Region 0: the embedder, two dense layers fused in one body. The grid has ten points; point t stages rows
  5000·t … 5000·t + 4999 of the node features, both 64 × 64 weights and both bias rows, and writes back the same
  rows of relu(relu(x · W1 + b1) · W2 + b2). Both products are plain sums over the inner axis on the extended reals
  (the bf16 casts are the identity, each accumulator starts at zero), so entry (p, q) of a block is
  max(Σ_j max(Σ_k x[p, k] · W1[k, j] + b1[0, j], 0) · W2[j, q] + b2[0, q], 0), which depends only on row p of x.
  Hence the block that point t writes is block t of any array G with that entry at every row r, and the ten
  blocks tile the 50000 × 64 array, row r lying in block r / 5000.
-/
import proofs.«159229_j86457691668579_1_alg».proof.Proof.Gen.KernelIdeal.Frame
import proofs.«159229_j86457691668579_1_alg».proof.Proof.LibPlainProduct
import Idealize.ShloMosaic.Lib.Pipeline.Value
import Idealize.ShloMosaic.Lib.ValueIdx
import Idealize.ShloMosaic.Lib.ValueLayout

set_option maxRecDepth 16384

noncomputable section

namespace Cert.KernelIdeal.Embed0

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- Entry (p, q) of the body's stored value: the two layers as nested plain sums. -/
theorem pay_entry (x : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k0_pay1 (F := Ideal) x w1 b1 w2 b2 (ix2 p q) = max ((∑ j : Fin 64, max ((∑ k : Fin 64, x (ix2 p k) * w1 (ix2 k j)) + b1 (ix2 (0 : Fin 1) j)) (Ideal.ofBits .f32 0x00000000#32) * w2 (ix2 j q)) + b2 (ix2 (0 : Fin 1) q)) (Ideal.ofBits .f32 0x00000000#32) := by
  unfold k0_pay1
  refine (maximumf_apply _ _ _).trans ?_
  refine congrArg₂ max ?_ rfl
  refine (addf_apply _ _ _).trans ?_
  refine congrArg₂ (· + ·) ?_ ?_
  · refine (Cert.PlainProduct.matmul_zero_entry dot_S5000x64_S64x64_S5000x64_1_0_0_1_n_n rfl rfl
      (fun _ _ => rfl) (fun _ _ => rfl) (fun _ _ => rfl) (fun _ _ => rfl) _ _ p q).trans ?_
    refine Finset.sum_congr rfl fun j _ => ?_
    rw [truncf_apply, truncf_apply]
    refine congrArg₂ (· * ·) ?_ rfl
    refine (maximumf_apply _ _ _).trans ?_
    refine congrArg₂ max ?_ rfl
    refine (addf_apply _ _ _).trans ?_
    refine congrArg₂ (· + ·) ?_ ?_
    · refine (Cert.PlainProduct.matmul_zero_entry dot_S5000x64_S64x64_S5000x64_1_0_0_1_n_n rfl rfl
        (fun _ _ => rfl) (fun _ _ => rfl) (fun _ _ => rfl) (fun _ _ => rfl) _ _ p j).trans ?_
      refine Finset.sum_congr rfl fun k _ => ?_
      rw [truncf_apply, truncf_apply]
    · rw [shapeCast_self]; exact broadcastTo_1b_ab_apply _ _ p j
  · rw [shapeCast_self]; exact broadcastTo_1b_ab_apply _ _ p q

/-- The printed index maps over the grid: the row-tiled windows sit at block (t, 0), the weights and bias rows at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The features' block at point t, read at (p, k), is the array at row 5000·t + p. -/
theorem read_x (c : Dev nD) (t : Fin cfg0.N) (p : Fin 5000) (k : Fin 64) (r : Fin 50000) (hr : r.val = t.val * 5000 + p.val) :
    iblk0 V c 0 t (ix2 p k) = V c main_arg0 (ix2 r k) := by
  show V c main_arg0 (((cfg0.win 0).blk t).view.emb (ix2 p k)) = _
  refine congrArg _ (funext fun a => Fin.ext ?_)
  obtain ⟨e0, e1, -⟩ := idx_facts t
  match a with
  | ⟨0, _⟩ => show win0_0.index t (0 : Fin 2) * 5000 + 1 * p.val = r.val; omega
  | ⟨1, _⟩ => show win0_0.index t (1 : Fin 2) * 64 + 1 * k.val = k.val; omega

/-- The first weight's block at every point is the whole weight. -/
theorem read_w1 (c : Dev nD) (t : Fin cfg0.N) (k j : Fin 64) : iblk0 V c 1 t (ix2 k j) = V c main_arg3 (ix2 k j) := by
  show V c main_arg3 (((cfg0.win 1).blk t).view.emb (ix2 k j)) = _
  refine congrArg _ (funext fun a => Fin.ext ?_)
  obtain ⟨-, -, e2, e3, -⟩ := idx_facts t
  match a with
  | ⟨0, _⟩ => show win0_1.index t (0 : Fin 2) * 64 + 1 * k.val = k.val; omega
  | ⟨1, _⟩ => show win0_1.index t (1 : Fin 2) * 64 + 1 * j.val = j.val; omega

/-- The first bias row's block at every point is the whole row. -/
theorem read_b1 (c : Dev nD) (t : Fin cfg0.N) (j : Fin 64) : iblk0 V c 2 t (ix2 (0 : Fin 1) j) = V c main_v30 (ix2 (0 : Fin 1) j) := by
  show V c main_v30 (((cfg0.win 2).blk t).view.emb (ix2 (0 : Fin 1) j)) = _
  refine congrArg _ (funext fun a => Fin.ext ?_)
  obtain ⟨-, -, -, -, e4, e5, -⟩ := idx_facts t
  match a with
  | ⟨0, _⟩ => show win0_2.index t (0 : Fin 2) * 1 + 1 * 0 = 0; omega
  | ⟨1, _⟩ => show win0_2.index t (1 : Fin 2) * 64 + 1 * j.val = j.val; omega

/-- The second weight's block at every point is the whole weight. -/
theorem read_w2 (c : Dev nD) (t : Fin cfg0.N) (j q : Fin 64) : iblk0 V c 3 t (ix2 j q) = V c main_arg5 (ix2 j q) := by
  show V c main_arg5 (((cfg0.win 3).blk t).view.emb (ix2 j q)) = _
  refine congrArg _ (funext fun a => Fin.ext ?_)
  obtain ⟨-, -, -, -, -, -, e6, e7, -⟩ := idx_facts t
  match a with
  | ⟨0, _⟩ => show win0_3.index t (0 : Fin 2) * 64 + 1 * j.val = j.val; omega
  | ⟨1, _⟩ => show win0_3.index t (1 : Fin 2) * 64 + 1 * q.val = q.val; omega

/-- The second bias row's block at every point is the whole row. -/
theorem read_b2 (c : Dev nD) (t : Fin cfg0.N) (q : Fin 64) : iblk0 V c 4 t (ix2 (0 : Fin 1) q) = V c main_v31 (ix2 (0 : Fin 1) q) := by
  show V c main_v31 (((cfg0.win 4).blk t).view.emb (ix2 (0 : Fin 1) q)) = _
  refine congrArg _ (funext fun a => Fin.ext ?_)
  obtain ⟨-, -, -, -, -, -, -, -, e8, e9, -⟩ := idx_facts t
  match a with
  | ⟨0, _⟩ => show win0_4.index t (0 : Fin 2) * 1 + 1 * 0 = 0; omega
  | ⟨1, _⟩ => show win0_4.index t (1 : Fin 2) * 64 + 1 * q.val = q.val; omega

/-- What point t writes back is block t of G. -/
theorem flushed_eq (c : Dev nD) (X : FVec Ideal S50000x64 .f32) (W1 : FVec Ideal S64x64 .f32) (W2 : FVec Ideal S64x64 .f32) (B1 : FVec Ideal S64 .f32) (B2 : FVec Ideal S64 .f32)
    (hX : V c main_arg0 = X) (hW1 : V c main_arg3 = W1) (hW2 : V c main_arg5 = W2) (hB1 : ∀ q : Fin 64, V c main_v30 (ix2 (0 : Fin 1) q) = B1 (ix1 q)) (hB2 : ∀ q : Fin 64, V c main_v31 (ix2 (0 : Fin 1) q) = B2 (ix1 q))
    (G : S50000x64.Idx → Elt Ideal .f32)
    (hG : ∀ (r : Fin 50000) (q : Fin 64), G (ix2 r q) = max ((∑ j : Fin 64, max ((∑ k : Fin 64, X (ix2 r k) * W1 (ix2 k j)) + B1 (ix1 j)) (Ideal.ofBits .f32 0x00000000#32) * W2 (ix2 j q)) + B2 (ix1 q)) (Ideal.ofBits .f32 0x00000000#32))
    (t : Fin cfg0.N) :
    (dat0 V c).flushed 5 t = ((cfg0.win 5).blk t).view.read (Elt Ideal) G := by
  subst hX hW1 hW2
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have ht : t.val < 10 := by have h := t.isLt; have hN : cfg0.N = 10 := N_0; omega
  let r : Fin 50000 := ⟨t.val * 5000 + p.val, by have := p.isLt; omega⟩
  have hemb : ((cfg0.win 5).blk t).view.emb (ix2 p q) = ix2 r q := by
    obtain ⟨-, -, -, -, -, -, -, -, -, -, e10, e11⟩ := idx_facts t
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show k0_pay1 (iblk0 V c 0 t) (iblk0 V c 1 t) (iblk0 V c 2 t) (iblk0 V c 3 t) (iblk0 V c 4 t) (ix2 p q) = G (((cfg0.win 5).blk t).view.emb (ix2 p q))
  rw [hemb, hG r q]
  refine (pay_entry (iblk0 V c 0 t) (iblk0 V c 1 t) (iblk0 V c 2 t) (iblk0 V c 3 t) (iblk0 V c 4 t) p q).trans ?_
  rw [read_b2 V c t q, hB2 q]
  refine congrArg₂ max (congrArg₂ (· + ·) (Finset.sum_congr rfl fun j _ => ?_) rfl) rfl
  rw [read_b1 V c t j, hB1 j, read_w2 V c t j q]
  refine congrArg₂ (· * ·) (congrArg₂ max (congrArg₂ (· + ·) (Finset.sum_congr rfl fun k _ => ?_) rfl) rfl) rfl
  rw [read_x V c t p k r rfl, read_w1 V c t k j]

/-- An index is in point t's block iff each coordinate is in the block's range. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v32).slice (win0_5.rect t)).set ↔ _
  rw [View.set_slice_whole, Rect.mem_set_unit]
  exact Iff.rfl

/-- The ten blocks tile the array: row r is in block r / 5000. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  let t : Fin cfg0.N := ⟨(i 0).val / 5000, by rw [show cfg0.N = 10 from N_0]; omega⟩
  refine ⟨t, flush0_5 t, ?_⟩
  rw [mem_blk]
  obtain ⟨-, -, -, -, -, -, -, -, -, -, e10, e11⟩ := idx_facts t
  have htv : t.val = (i 0).val / 5000 := rfl
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The region's output array after its ten points is G. -/
theorem final (c : Dev nD) (X : FVec Ideal S50000x64 .f32) (W1 : FVec Ideal S64x64 .f32) (W2 : FVec Ideal S64x64 .f32) (B1 : FVec Ideal S64 .f32) (B2 : FVec Ideal S64 .f32)
    (hX : V c main_arg0 = X) (hW1 : V c main_arg3 = W1) (hW2 : V c main_arg5 = W2) (hB1 : ∀ q : Fin 64, V c main_v30 (ix2 (0 : Fin 1) q) = B1 (ix1 q)) (hB2 : ∀ q : Fin 64, V c main_v31 (ix2 (0 : Fin 1) q) = B2 (ix1 q))
    (G : S50000x64.Idx → Elt Ideal .f32)
    (hG : ∀ (r : Fin 50000) (q : Fin 64), G (ix2 r q) = max ((∑ j : Fin 64, max ((∑ k : Fin 64, X (ix2 r k) * W1 (ix2 k j)) + B1 (ix1 j)) (Ideal.ofBits .f32 0x00000000#32) * W2 (ix2 j q)) + B2 (ix1 q)) (Ideal.ofBits .f32 0x00000000#32)) :
    (dat0 V c).arrAt 5 cfg0.N = G :=
  (dat0 V c).arrAt_eq_of_cover 5 G (fun t _ => flushed_eq V c X W1 W2 B1 B2 hX hW1 hW2 hB1 hB2 G hG t) cover

end Cert.KernelIdeal.Embed0

end
-- ==== Proof.Project1.lean ====
/-
  Region 1: the dense projection of the embedded features onto the first layer's weight ([50000, 64] · [64, 128]). The grid has ten points; point t stages rows 5000·t … 5000·t + 4999 of the
  left operand and the whole weight, and writes back the same rows of the product. Entry (p, q) of a block's product
  is the plain sum over k of left[p, k] · weight[k, q] on the extended reals (the bf16 casts are the identity, the
  accumulator starts at zero), so the block that point t writes is block t of any array G whose entry (r, q) is the
  sum over k of left[r, k] · weight[k, q]. The ten blocks tile the 50000 × 128 array: row r lies in block r / 5000.
-/
import proofs.«159229_j86457691668579_1_alg».proof.Proof.Gen.KernelIdeal.Frame
import proofs.«159229_j86457691668579_1_alg».proof.Proof.LibPlainProduct
import Idealize.ShloMosaic.Lib.Pipeline.Value
import Idealize.ShloMosaic.Lib.ValueIdx

set_option maxRecDepth 16384

noncomputable section

namespace Cert.KernelIdeal.Project1

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- Entry (p, q) of the body's stored value: the plain sum over the inner axis. -/
theorem pay_entry (x : Vec Ideal S5000x64 .f32) (w : Vec Ideal S64x128 .f32) (p : Fin 5000) (q : Fin 128) :
    k1_pay1 (F := Ideal) x w (ix2 p q) = ∑ k : Fin 64, x (ix2 p k) * w (ix2 k q) := by
  unfold k1_pay1
  refine (Cert.PlainProduct.matmul_zero_entry dot_S5000x64_S64x128_S5000x128_1_0_0_1_n_n rfl rfl
    (fun _ _ => rfl) (fun _ _ => rfl) (fun _ _ => rfl) (fun _ _ => rfl) _ _ p q).trans ?_
  refine Finset.sum_congr rfl fun k _ => ?_
  rw [truncf_apply, truncf_apply, shapeCast_self]

/-- The printed index maps over the grid: the row-tiled windows sit at block (t, 0), the weight at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The left operand's block at point t, read at (p, k), is the array at row 5000·t + p. -/
theorem read_left (c : Dev nD) (t : Fin cfg1.N) (p : Fin 5000) (k : Fin 64) (r : Fin 50000) (hr : r.val = t.val * 5000 + p.val) :
    iblk1 V c 0 t (ix2 p k) = V c main_v32 (ix2 r k) := by
  show V c main_v32 (((cfg1.win 0).blk t).view.emb (ix2 p k)) = _
  refine congrArg _ (funext fun a => Fin.ext ?_)
  obtain ⟨e0, e1, -, -, -, -⟩ := idx_facts t
  match a with
  | ⟨0, _⟩ => show win1_0.index t (0 : Fin 2) * 5000 + 1 * p.val = r.val; omega
  | ⟨1, _⟩ => show win1_0.index t (1 : Fin 2) * 64 + 1 * k.val = k.val; omega

/-- The weight's block at every point is the whole weight. -/
theorem read_weight (c : Dev nD) (t : Fin cfg1.N) (k : Fin 64) (q : Fin 128) :
    iblk1 V c 1 t (ix2 k q) = V c main_arg7 (ix2 k q) := by
  show V c main_arg7 (((cfg1.win 1).blk t).view.emb (ix2 k q)) = _
  refine congrArg _ (funext fun a => Fin.ext ?_)
  obtain ⟨-, -, e2, e3, -, -⟩ := idx_facts t
  match a with
  | ⟨0, _⟩ => show win1_1.index t (0 : Fin 2) * 64 + 1 * k.val = k.val; omega
  | ⟨1, _⟩ => show win1_1.index t (1 : Fin 2) * 128 + 1 * q.val = q.val; omega

/-- What point t writes back is block t of G. -/
theorem flushed_eq (c : Dev nD) (A : FVec Ideal S50000x64 .f32) (B : FVec Ideal S64x128 .f32) (hA : V c main_v32 = A) (hB : V c main_arg7 = B) (G : S50000x128.Idx → Elt Ideal .f32)
    (hG : ∀ (r : Fin 50000) (q : Fin 128), G (ix2 r q)
      = ∑ k : Fin 64, A (ix2 r k) * B (ix2 k q))
    (t : Fin cfg1.N) :
    (dat1 V c).flushed 2 t = ((cfg1.win 2).blk t).view.read (Elt Ideal) G := by
  subst hA hB
  show (cfg1.win 2).cut (grid1.coords t) ((dat1 V c).after 2 t) = _
  rw [after1_2]
  unfold out1_2
  rw [View.canon_unit_zero hz]
  simp only [View.ld_unit_zero (S := S5000x64) hz, View.ld_unit_zero (S := S64x128) hz]
  funext j
  obtain ⟨p, q, rfl⟩ : ∃ (p : Fin 5000) (q : Fin 128), j = ix2 p q := ⟨j 0, j 1, eq_ix2 j⟩
  have ht : t.val < 10 := by have h := t.isLt; have hN : cfg1.N = 10 := N_1; omega
  let r : Fin 50000 := ⟨t.val * 5000 + p.val, by have := p.isLt; omega⟩
  have hemb : ((cfg1.win 2).blk t).view.emb (ix2 p q) = ix2 r q := by
    obtain ⟨-, -, -, -, e4, e5⟩ := idx_facts t
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  show k1_pay1 (iblk1 V c 0 t) (iblk1 V c 1 t) (ix2 p q) = G (((cfg1.win 2).blk t).view.emb (ix2 p q))
  rw [hemb, hG r q]
  refine (pay_entry (iblk1 V c 0 t) (iblk1 V c 1 t) p q).trans ?_
  refine Finset.sum_congr rfl fun k _ => ?_
  rw [read_left V c t p k r rfl, read_weight V c t k q]

/-- An index is in point t's block iff each coordinate is in the block's range. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v33).slice (win1_2.rect t)).set ↔ _
  rw [View.set_slice_whole, Rect.mem_set_unit]
  exact Iff.rfl

/-- The ten blocks tile the array: row r is in block r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, by rw [show cfg1.N = 10 from N_1]; omega⟩
  refine ⟨t, flush1_2 t, ?_⟩
  rw [mem_blk]
  obtain ⟨-, -, -, -, e4, e5⟩ := idx_facts t
  have htv : t.val = (i 0).val / 5000 := rfl
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The region's output array after its ten points is G. -/
theorem final (c : Dev nD) (A : FVec Ideal S50000x64 .f32) (B : FVec Ideal S64x128 .f32) (hA : V c main_v32 = A) (hB : V c main_arg7 = B) (G : S50000x128.Idx → Elt Ideal .f32)
    (hG : ∀ (r : Fin 50000) (q : Fin 128), G (ix2 r q)
      = ∑ k : Fin 64, A (ix2 r k) * B (ix2 k q)) :
    (dat1 V c).arrAt 2 cfg1.N = G :=
  (dat1 V c).arrAt_eq_of_cover 2 G (fun t _ => flushed_eq V c A B hA hB G hG t) cover

end Cert.KernelIdeal.Project1

end
-- ==== Proof.Bias2.lean ====
/-
  Region 2: the first layer's bias and ReLU after the scatter-add. The grid has ten points; point t stages rows 5000·t … 5000·t + 4999 of the summed
  messages and the bias row, and writes back the same rows of max(x + b, 0), the bias read at the entry's column.
  So the block that point t writes is block t of any array G whose entry (r, q) is max(x[r, q] + b[0, q], 0); the ten
  blocks tile the array, row r lying in block r / 5000.
-/
import proofs.«159229_j86457691668579_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias2

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- Entry (p, q) of the body's stored value. -/
theorem pay_entry (x : Vec Ideal S5000x128 .f32) (b : Vec Ideal S1x128 .f32) (p : Fin 5000) (q : Fin 128) :
    k2_pay1 (F := Ideal) x b (ix2 p q) = max (x (ix2 p q) + b (ix2 (0 : Fin 1) q)) (Ideal.ofBits .f32 0x00000000#32) := by
  simp only [k2_pay1, maximumf_apply, addf_apply, shapeCast_self, broadcastTo_1b_ab_apply, broadcast_apply]
  rfl

/-- The printed index maps over the grid: the row-tiled windows sit at block (t, 0), the bias row at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The summed messages' block at point t, read at (p, q), is the array at row 5000·t + p. -/
theorem read_rows (c : Dev nD) (t : Fin cfg2.N) (p : Fin 5000) (q : Fin 128) (r : Fin 50000) (hr : r.val = t.val * 5000 + p.val) :
    iblk2 V c 0 t (ix2 p q) = V c main_v46 (ix2 r q) := by
  show V c main_v46 (((cfg2.win 0).blk t).view.emb (ix2 p q)) = _
  refine congrArg _ (funext fun a => Fin.ext ?_)
  obtain ⟨e0, e1, -, -, -, -⟩ := idx_facts t
  match a with
  | ⟨0, _⟩ => show win2_0.index t (0 : Fin 2) * 5000 + 1 * p.val = r.val; omega
  | ⟨1, _⟩ => show win2_0.index t (1 : Fin 2) * 128 + 1 * q.val = q.val; omega

/-- The bias row's block at every point is the whole row. -/
theorem read_bias (c : Dev nD) (t : Fin cfg2.N) (q : Fin 128) :
    iblk2 V c 1 t (ix2 (0 : Fin 1) q) = V c main_v47 (ix2 (0 : Fin 1) q) := by
  show V c main_v47 (((cfg2.win 1).blk t).view.emb (ix2 (0 : Fin 1) q)) = _
  refine congrArg _ (funext fun a => Fin.ext ?_)
  obtain ⟨-, -, e2, e3, -, -⟩ := idx_facts t
  match a with
  | ⟨0, _⟩ => show win2_1.index t (0 : Fin 2) * 1 + 1 * 0 = 0; omega
  | ⟨1, _⟩ => show win2_1.index t (1 : Fin 2) * 128 + 1 * q.val = q.val; omega

/-- What point t writes back is block t of G. -/
theorem flushed_eq (c : Dev nD) (A : FVec Ideal S50000x128 .f32) (Bv : FVec Ideal S128 .f32)
    (hA : V c main_v46 = A) (hBv : ∀ q : Fin 128, V c main_v47 (ix2 (0 : Fin 1) q) = Bv (ix1 q))
    (G : S50000x128.Idx → Elt Ideal .f32)
    (hG : ∀ (r : Fin 50000) (q : Fin 128), G (ix2 r q)
      = max (A (ix2 r q) + Bv (ix1 q)) (Ideal.ofBits .f32 0x00000000#32))
    (t : Fin cfg2.N) :
    (dat2 V c).flushed 2 t = ((cfg2.win 2).blk t).view.read (Elt Ideal) G := by
  subst hA
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have ht : t.val < 10 := by have h := t.isLt; have hN : cfg2.N = 10 := N_2; omega
  let r : Fin 50000 := ⟨t.val * 5000 + p.val, by have := p.isLt; omega⟩
  have hemb : ((cfg2.win 2).blk t).view.emb (ix2 p q) = ix2 r q := by
    obtain ⟨-, -, -, -, e4, e5⟩ := idx_facts t
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  show k2_pay1 (iblk2 V c 0 t) (iblk2 V c 1 t) (ix2 p q) = G (((cfg2.win 2).blk t).view.emb (ix2 p q))
  rw [hemb, hG r q]
  refine (pay_entry (iblk2 V c 0 t) (iblk2 V c 1 t) p q).trans ?_
  rw [read_rows V c t p q r rfl, read_bias V c t q, hBv q]

/-- An index is in point t's block iff each coordinate is in the block's range. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- The ten blocks tile the array: row r is in block r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, by rw [show cfg2.N = 10 from N_2]; omega⟩
  refine ⟨t, flush2_2 t, ?_⟩
  rw [mem_blk]
  obtain ⟨-, -, -, -, e4, e5⟩ := idx_facts t
  have htv : t.val = (i 0).val / 5000 := rfl
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The region's output array after its ten points is G. -/
theorem final (c : Dev nD) (A : FVec Ideal S50000x128 .f32) (Bv : FVec Ideal S128 .f32)
    (hA : V c main_v46 = A) (hBv : ∀ q : Fin 128, V c main_v47 (ix2 (0 : Fin 1) q) = Bv (ix1 q))
    (G : S50000x128.Idx → Elt Ideal .f32)
    (hG : ∀ (r : Fin 50000) (q : Fin 128), G (ix2 r q)
      = max (A (ix2 r q) + Bv (ix1 q)) (Ideal.ofBits .f32 0x00000000#32)) :
    (dat2 V c).arrAt 2 cfg2.N = G :=
  (dat2 V c).arrAt_eq_of_cover 2 G (fun t _ => flushed_eq V c A Bv hA hBv G hG t) cover

end Cert.KernelIdeal.Bias2

end
-- ==== Proof.Project3.lean ====
/-
  Region 3: the dense projection of the first layer's activations onto the second layer's weight ([50000, 128] · [128, 128]). The grid has ten points; point t stages rows 5000·t … 5000·t + 4999 of the
  left operand and the whole weight, and writes back the same rows of the product. Entry (p, q) of a block's product
  is the plain sum over k of left[p, k] · weight[k, q] on the extended reals (the bf16 casts are the identity, the
  accumulator starts at zero), so the block that point t writes is block t of any array G whose entry (r, q) is the
  sum over k of left[r, k] · weight[k, q]. The ten blocks tile the 50000 × 128 array: row r lies in block r / 5000.
-/
import proofs.«159229_j86457691668579_1_alg».proof.Proof.Gen.KernelIdeal.Frame
import proofs.«159229_j86457691668579_1_alg».proof.Proof.LibPlainProduct
import Idealize.ShloMosaic.Lib.Pipeline.Value
import Idealize.ShloMosaic.Lib.ValueIdx

set_option maxRecDepth 16384

noncomputable section

namespace Cert.KernelIdeal.Project3

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- Entry (p, q) of the body's stored value: the plain sum over the inner axis. -/
theorem pay_entry (x : Vec Ideal S5000x128 .f32) (w : Vec Ideal S128x128 .f32) (p : Fin 5000) (q : Fin 128) :
    k3_pay1 (F := Ideal) x w (ix2 p q) = ∑ k : Fin 128, x (ix2 p k) * w (ix2 k q) := by
  unfold k3_pay1
  refine (Cert.PlainProduct.matmul_zero_entry dot_S5000x128_S128x128_S5000x128_1_0_0_1_n_n rfl rfl
    (fun _ _ => rfl) (fun _ _ => rfl) (fun _ _ => rfl) (fun _ _ => rfl) _ _ p q).trans ?_
  refine Finset.sum_congr rfl fun k _ => ?_
  rw [truncf_apply, truncf_apply, shapeCast_self]

/-- The printed index maps over the grid: the row-tiled windows sit at block (t, 0), the weight at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The left operand's block at point t, read at (p, k), is the array at row 5000·t + p. -/
theorem read_left (c : Dev nD) (t : Fin cfg3.N) (p : Fin 5000) (k : Fin 128) (r : Fin 50000) (hr : r.val = t.val * 5000 + p.val) :
    iblk3 V c 0 t (ix2 p k) = V c main_v48 (ix2 r k) := by
  show V c main_v48 (((cfg3.win 0).blk t).view.emb (ix2 p k)) = _
  refine congrArg _ (funext fun a => Fin.ext ?_)
  obtain ⟨e0, e1, -, -, -, -⟩ := idx_facts t
  match a with
  | ⟨0, _⟩ => show win3_0.index t (0 : Fin 2) * 5000 + 1 * p.val = r.val; omega
  | ⟨1, _⟩ => show win3_0.index t (1 : Fin 2) * 128 + 1 * k.val = k.val; omega

/-- The weight's block at every point is the whole weight. -/
theorem read_weight (c : Dev nD) (t : Fin cfg3.N) (k : Fin 128) (q : Fin 128) :
    iblk3 V c 1 t (ix2 k q) = V c main_arg9 (ix2 k q) := by
  show V c main_arg9 (((cfg3.win 1).blk t).view.emb (ix2 k q)) = _
  refine congrArg _ (funext fun a => Fin.ext ?_)
  obtain ⟨-, -, e2, e3, -, -⟩ := idx_facts t
  match a with
  | ⟨0, _⟩ => show win3_1.index t (0 : Fin 2) * 128 + 1 * k.val = k.val; omega
  | ⟨1, _⟩ => show win3_1.index t (1 : Fin 2) * 128 + 1 * q.val = q.val; omega

/-- What point t writes back is block t of G. -/
theorem flushed_eq (c : Dev nD) (A : FVec Ideal S50000x128 .f32) (B : FVec Ideal S128x128 .f32) (hA : V c main_v48 = A) (hB : V c main_arg9 = B) (G : S50000x128.Idx → Elt Ideal .f32)
    (hG : ∀ (r : Fin 50000) (q : Fin 128), G (ix2 r q)
      = ∑ k : Fin 128, A (ix2 r k) * B (ix2 k q))
    (t : Fin cfg3.N) :
    (dat3 V c).flushed 2 t = ((cfg3.win 2).blk t).view.read (Elt Ideal) G := by
  subst hA hB
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  have ht : t.val < 10 := by have h := t.isLt; have hN : cfg3.N = 10 := N_3; omega
  let r : Fin 50000 := ⟨t.val * 5000 + p.val, by have := p.isLt; omega⟩
  have hemb : ((cfg3.win 2).blk t).view.emb (ix2 p q) = ix2 r q := by
    obtain ⟨-, -, -, -, e4, e5⟩ := idx_facts t
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  show k3_pay1 (iblk3 V c 0 t) (iblk3 V c 1 t) (ix2 p q) = G (((cfg3.win 2).blk t).view.emb (ix2 p q))
  rw [hemb, hG r q]
  refine (pay_entry (iblk3 V c 0 t) (iblk3 V c 1 t) p q).trans ?_
  refine Finset.sum_congr rfl fun k _ => ?_
  rw [read_left V c t p k r rfl, read_weight V c t k q]

/-- An index is in point t's block iff each coordinate is in the block's range. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v49).slice (win3_2.rect t)).set ↔ _
  rw [View.set_slice_whole, Rect.mem_set_unit]
  exact Iff.rfl

/-- The ten blocks tile the array: row r is in block r / 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  let t : Fin cfg3.N := ⟨(i 0).val / 5000, by rw [show cfg3.N = 10 from N_3]; omega⟩
  refine ⟨t, flush3_2 t, ?_⟩
  rw [mem_blk]
  obtain ⟨-, -, -, -, e4, e5⟩ := idx_facts t
  have htv : t.val = (i 0).val / 5000 := rfl
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The region's output array after its ten points is G. -/
theorem final (c : Dev nD) (A : FVec Ideal S50000x128 .f32) (B : FVec Ideal S128x128 .f32) (hA : V c main_v48 = A) (hB : V c main_arg9 = B) (G : S50000x128.Idx → Elt Ideal .f32)
    (hG : ∀ (r : Fin 50000) (q : Fin 128), G (ix2 r q)
      = ∑ k : Fin 128, A (ix2 r k) * B (ix2 k q)) :
    (dat3 V c).arrAt 2 cfg3.N = G :=
  (dat3 V c).arrAt_eq_of_cover 2 G (fun t _ => flushed_eq V c A B hA hB G hG t) cover

end Cert.KernelIdeal.Project3

end
-- ==== Proof.Bias4.lean ====
/-
  Region 4: the second layer's bias and ReLU after the scatter-add. The grid has ten points; point t stages rows 5000·t … 5000·t + 4999 of the summed
  messages and the bias row, and writes back the same rows of max(x + b, 0), the bias read at the entry's column.
  So the block that point t writes is block t of any array G whose entry (r, q) is max(x[r, q] + b[0, q], 0); the ten
  blocks tile the array, row r lying in block r / 5000.
-/
import proofs.«159229_j86457691668579_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias4

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- Entry (p, q) of the body's stored value. -/
theorem pay_entry (x : Vec Ideal S5000x128 .f32) (b : Vec Ideal S1x128 .f32) (p : Fin 5000) (q : Fin 128) :
    k4_pay1 (F := Ideal) x b (ix2 p q) = max (x (ix2 p q) + b (ix2 (0 : Fin 1) q)) (Ideal.ofBits .f32 0x00000000#32) := by
  simp only [k4_pay1, maximumf_apply, addf_apply, shapeCast_self, broadcastTo_1b_ab_apply, broadcast_apply]
  rfl

/-- The printed index maps over the grid: the row-tiled windows sit at block (t, 0), the bias row at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- The summed messages' block at point t, read at (p, q), is the array at row 5000·t + p. -/
theorem read_rows (c : Dev nD) (t : Fin cfg4.N) (p : Fin 5000) (q : Fin 128) (r : Fin 50000) (hr : r.val = t.val * 5000 + p.val) :
    iblk4 V c 0 t (ix2 p q) = V c main_v62 (ix2 r q) := by
  show V c main_v62 (((cfg4.win 0).blk t).view.emb (ix2 p q)) = _
  refine congrArg _ (funext fun a => Fin.ext ?_)
  obtain ⟨e0, e1, -, -, -, -⟩ := idx_facts t
  match a with
  | ⟨0, _⟩ => show win4_0.index t (0 : Fin 2) * 5000 + 1 * p.val = r.val; omega
  | ⟨1, _⟩ => show win4_0.index t (1 : Fin 2) * 128 + 1 * q.val = q.val; omega

/-- The bias row's block at every point is the whole row. -/
theorem read_bias (c : Dev nD) (t : Fin cfg4.N) (q : Fin 128) :
    iblk4 V c 1 t (ix2 (0 : Fin 1) q) = V c main_v63 (ix2 (0 : Fin 1) q) := by
  show V c main_v63 (((cfg4.win 1).blk t).view.emb (ix2 (0 : Fin 1) q)) = _
  refine congrArg _ (funext fun a => Fin.ext ?_)
  obtain ⟨-, -, e2, e3, -, -⟩ := idx_facts t
  match a with
  | ⟨0, _⟩ => show win4_1.index t (0 : Fin 2) * 1 + 1 * 0 = 0; omega
  | ⟨1, _⟩ => show win4_1.index t (1 : Fin 2) * 128 + 1 * q.val = q.val; omega

/-- What point t writes back is block t of G. -/
theorem flushed_eq (c : Dev nD) (A : FVec Ideal S50000x128 .f32) (Bv : FVec Ideal S128 .f32)
    (hA : V c main_v62 = A) (hBv : ∀ q : Fin 128, V c main_v63 (ix2 (0 : Fin 1) q) = Bv (ix1 q))
    (G : S50000x128.Idx → Elt Ideal .f32)
    (hG : ∀ (r : Fin 50000) (q : Fin 128), G (ix2 r q)
      = max (A (ix2 r q) + Bv (ix1 q)) (Ideal.ofBits .f32 0x00000000#32))
    (t : Fin cfg4.N) :
    (dat4 V c).flushed 2 t = ((cfg4.win 2).blk t).view.read (Elt Ideal) G := by
  subst hA
  show (cfg4.win 2).cut (grid4.coords t) ((dat4 V c).after 2 t) = _
  rw [after4_2]
  unfold out4_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have ht : t.val < 10 := by have h := t.isLt; have hN : cfg4.N = 10 := N_4; omega
  let r : Fin 50000 := ⟨t.val * 5000 + p.val, by have := p.isLt; omega⟩
  have hemb : ((cfg4.win 2).blk t).view.emb (ix2 p q) = ix2 r q := by
    obtain ⟨-, -, -, -, e4, e5⟩ := idx_facts t
    funext a; apply Fin.ext
    match a with
    | ⟨0, _⟩ => show win4_2.index t (0 : Fin 2) * 5000 + 1 * p.val = t.val * 5000 + p.val; omega
    | ⟨1, _⟩ => show win4_2.index t (1 : Fin 2) * 128 + 1 * q.val = q.val; omega
  show k4_pay1 (iblk4 V c 0 t) (iblk4 V c 1 t) (ix2 p q) = G (((cfg4.win 2).blk t).view.emb (ix2 p q))
  rw [hemb, hG r q]
  refine (pay_entry (iblk4 V c 0 t) (iblk4 V c 1 t) p q).trans ?_
  rw [read_rows V c t p q r rfl, read_bias V c t q, hBv q]

/-- An index is in point t's block iff each coordinate is in the block's range. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v64).slice (win4_2.rect t)).set ↔ _
  rw [View.set_slice_whole, Rect.mem_set_unit]
  exact Iff.rfl

/-- The ten blocks tile the array: row r is in block r / 5000. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  let t : Fin cfg4.N := ⟨(i 0).val / 5000, by rw [show cfg4.N = 10 from N_4]; omega⟩
  refine ⟨t, flush4_2 t, ?_⟩
  rw [mem_blk]
  obtain ⟨-, -, -, -, e4, e5⟩ := idx_facts t
  have htv : t.val = (i 0).val / 5000 := rfl
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The region's output array after its ten points is G. -/
theorem final (c : Dev nD) (A : FVec Ideal S50000x128 .f32) (Bv : FVec Ideal S128 .f32)
    (hA : V c main_v62 = A) (hBv : ∀ q : Fin 128, V c main_v63 (ix2 (0 : Fin 1) q) = Bv (ix1 q))
    (G : S50000x128.Idx → Elt Ideal .f32)
    (hG : ∀ (r : Fin 50000) (q : Fin 128), G (ix2 r q)
      = max (A (ix2 r q) + Bv (ix1 q)) (Ideal.ofBits .f32 0x00000000#32)) :
    (dat4 V c).arrAt 2 cfg4.N = G :=
  (dat4 V c).arrAt_eq_of_cover 2 G (fun t _ => flushed_eq V c A Bv hA hBv G hG t) cover

end Cert.KernelIdeal.Bias4

end
-- ==== Proof.Project5.lean ====
/-
  Region 5: the dense projection of the second layer's activations onto the third layer's weight ([50000, 128] · [128, 10]). The grid has ten points; point t stages rows 5000·t … 5000·t + 4999 of the
  left operand and the whole weight, and writes back the same rows of the product. Entry (p, q) of a block's product
  is the plain sum over k of left[p, k] · weight[k, q] on the extended reals (the bf16 casts are the identity, the
  accumulator starts at zero), so the block that point t writes is block t of any array G whose entry (r, q) is the
  sum over k of left[r, k] · weight[k, q]. The ten blocks tile the 50000 × 10 array: row r lies in block r / 5000.
-/
import proofs.«159229_j86457691668579_1_alg».proof.Proof.Gen.KernelIdeal.Frame
import proofs.«159229_j86457691668579_1_alg».proof.Proof.LibPlainProduct
import Idealize.ShloMosaic.Lib.Pipeline.Value
import Idealize.ShloMosaic.Lib.ValueIdx

set_option maxRecDepth 16384

noncomputable section

namespace Cert.KernelIdeal.Project5

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- Entry (p, q) of the body's stored value: the plain sum over the inner axis. -/
theorem pay_entry (x : Vec Ideal S5000x128 .f32) (w : Vec Ideal S128x10 .f32) (p : Fin 5000) (q : Fin 10) :
    k5_pay1 (F := Ideal) x w (ix2 p q) = ∑ k : Fin 128, x (ix2 p k) * w (ix2 k q) := by
  unfold k5_pay1
  refine (Cert.PlainProduct.matmul_zero_entry dot_S5000x128_S128x10_S5000x10_1_0_0_1_n_n rfl rfl
    (fun _ _ => rfl) (fun _ _ => rfl) (fun _ _ => rfl) (fun _ _ => rfl) _ _ p q).trans ?_
  refine Finset.sum_congr rfl fun k _ => ?_
  rw [truncf_apply, truncf_apply, shapeCast_self]

/-- The printed index maps over the grid: the row-tiled windows sit at block (t, 0), the weight at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- The left operand's block at point t, read at (p, k), is the array at row 5000·t + p. -/
theorem read_left (c : Dev nD) (t : Fin cfg5.N) (p : Fin 5000) (k : Fin 128) (r : Fin 50000) (hr : r.val = t.val * 5000 + p.val) :
    iblk5 V c 0 t (ix2 p k) = V c main_v64 (ix2 r k) := by
  show V c main_v64 (((cfg5.win 0).blk t).view.emb (ix2 p k)) = _
  refine congrArg _ (funext fun a => Fin.ext ?_)
  obtain ⟨e0, e1, -, -, -, -⟩ := idx_facts t
  match a with
  | ⟨0, _⟩ => show win5_0.index t (0 : Fin 2) * 5000 + 1 * p.val = r.val; omega
  | ⟨1, _⟩ => show win5_0.index t (1 : Fin 2) * 128 + 1 * k.val = k.val; omega

/-- The weight's block at every point is the whole weight. -/
theorem read_weight (c : Dev nD) (t : Fin cfg5.N) (k : Fin 128) (q : Fin 10) :
    iblk5 V c 1 t (ix2 k q) = V c main_arg11 (ix2 k q) := by
  show V c main_arg11 (((cfg5.win 1).blk t).view.emb (ix2 k q)) = _
  refine congrArg _ (funext fun a => Fin.ext ?_)
  obtain ⟨-, -, e2, e3, -, -⟩ := idx_facts t
  match a with
  | ⟨0, _⟩ => show win5_1.index t (0 : Fin 2) * 128 + 1 * k.val = k.val; omega
  | ⟨1, _⟩ => show win5_1.index t (1 : Fin 2) * 10 + 1 * q.val = q.val; omega

/-- What point t writes back is block t of G. -/
theorem flushed_eq (c : Dev nD) (A : FVec Ideal S50000x128 .f32) (B : FVec Ideal S128x10 .f32) (hA : V c main_v64 = A) (hB : V c main_arg11 = B) (G : S50000x10.Idx → Elt Ideal .f32)
    (hG : ∀ (r : Fin 50000) (q : Fin 10), G (ix2 r q)
      = ∑ k : Fin 128, A (ix2 r k) * B (ix2 k q))
    (t : Fin cfg5.N) :
    (dat5 V c).flushed 2 t = ((cfg5.win 2).blk t).view.read (Elt Ideal) G := by
  subst hA hB
  show (cfg5.win 2).cut (grid5.coords t) ((dat5 V c).after 2 t) = _
  rw [after5_2]
  unfold out5_2
  rw [View.canon_unit_zero hz]
  simp only [View.ld_unit_zero (S := S5000x128) hz, View.ld_unit_zero (S := S128x10) hz]
  funext j
  obtain ⟨p, q, rfl⟩ : ∃ (p : Fin 5000) (q : Fin 10), j = ix2 p q := ⟨j 0, j 1, eq_ix2 j⟩
  have ht : t.val < 10 := by have h := t.isLt; have hN : cfg5.N = 10 := N_5; omega
  let r : Fin 50000 := ⟨t.val * 5000 + p.val, by have := p.isLt; omega⟩
  have hemb : ((cfg5.win 2).blk t).view.emb (ix2 p q) = ix2 r q := by
    obtain ⟨-, -, -, -, e4, e5⟩ := idx_facts t
    funext a; apply Fin.ext
    match a with
    | ⟨0, _⟩ => show win5_2.index t (0 : Fin 2) * 5000 + 1 * p.val = t.val * 5000 + p.val; omega
    | ⟨1, _⟩ => show win5_2.index t (1 : Fin 2) * 10 + 1 * q.val = q.val; omega
  show k5_pay1 (iblk5 V c 0 t) (iblk5 V c 1 t) (ix2 p q) = G (((cfg5.win 2).blk t).view.emb (ix2 p q))
  rw [hemb, hG r q]
  refine (pay_entry (iblk5 V c 0 t) (iblk5 V c 1 t) p q).trans ?_
  refine Finset.sum_congr rfl fun k _ => ?_
  rw [read_left V c t p k r rfl, read_weight V c t k q]

/-- An index is in point t's block iff each coordinate is in the block's range. -/
theorem mem_blk (t : Fin cfg5.N) (i : S50000x10.Idx) :
    i ∈ ((cfg5.win 2).blk t).view.set ↔ ∀ a : Fin 2, win5_2.index t a * S5000x10.size a ≤ (i a).val ∧ (i a).val < win5_2.index t a * S5000x10.size a + S5000x10.size a := by
  show i ∈ ((View.whole main_v65).slice (win5_2.rect t)).set ↔ _
  rw [View.set_slice_whole, Rect.mem_set_unit]
  exact Iff.rfl

/-- The ten blocks tile the array: row r is in block r / 5000. -/
theorem cover (i : S50000x10.Idx) : ∃ t : Fin cfg5.N, (cfg5.win 2).flush t = true ∧ i ∈ ((cfg5.win 2).blk t).view.set := by
  have hi0 : (i 0).val < 50000 := (i 0).isLt
  have hi1 : (i 1).val < 10 := (i 1).isLt
  let t : Fin cfg5.N := ⟨(i 0).val / 5000, by rw [show cfg5.N = 10 from N_5]; omega⟩
  refine ⟨t, flush5_2 t, ?_⟩
  rw [mem_blk]
  obtain ⟨-, -, -, -, e4, e5⟩ := idx_facts t
  have htv : t.val = (i 0).val / 5000 := rfl
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 10 ≤ (i 1).val ∧ (i 1).val < win5_2.index t (1 : Fin 2) * 10 + 10; omega

/-- The region's output array after its ten points is G. -/
theorem final (c : Dev nD) (A : FVec Ideal S50000x128 .f32) (B : FVec Ideal S128x10 .f32) (hA : V c main_v64 = A) (hB : V c main_arg11 = B) (G : S50000x10.Idx → Elt Ideal .f32)
    (hG : ∀ (r : Fin 50000) (q : Fin 10), G (ix2 r q)
      = ∑ k : Fin 128, A (ix2 r k) * B (ix2 k q)) :
    (dat5 V c).arrAt 2 cfg5.N = G :=
  (dat5 V c).arrAt_eq_of_cover 2 G (fun t _ => flushed_eq V c A B hA hB G hG t) cover

end Cert.KernelIdeal.Project5

end
-- ==== Proof.Bias6.lean ====
/-
  Region 6: the third layer's bias after the scatter-add (no activation). The grid has ten points; point t stages rows 5000·t … 5000·t + 4999 of the summed
  messages and the bias row, and writes back the same rows of x + b, the bias read at the entry's column.
  So the block that point t writes is block t of any array G whose entry (r, q) is x[r, q] + b[0, q]; the ten
  blocks tile the array, row r lying in block r / 5000.
-/
import proofs.«159229_j86457691668579_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias6

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- Entry (p, q) of the body's stored value. -/
theorem pay_entry (x : Vec Ideal S5000x10 .f32) (b : Vec Ideal S1x10 .f32) (p : Fin 5000) (q : Fin 10) :
    k6_pay1 (F := Ideal) x b (ix2 p q) = x (ix2 p q) + b (ix2 (0 : Fin 1) q) := by
  simp only [k6_pay1, addf_apply, shapeCast_self, broadcastTo_1b_ab_apply]

/-- The printed index maps over the grid: the row-tiled windows sit at block (t, 0), the bias row at block (0, 0). -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

/-- The summed messages' block at point t, read at (p, q), is the array at row 5000·t + p. -/
theorem read_rows (c : Dev nD) (t : Fin cfg6.N) (p : Fin 5000) (q : Fin 10) (r : Fin 50000) (hr : r.val = t.val * 5000 + p.val) :
    iblk6 V c 0 t (ix2 p q) = V c main_v78 (ix2 r q) := by
  show V c main_v78 (((cfg6.win 0).blk t).view.emb (ix2 p q)) = _
  refine congrArg _ (funext fun a => Fin.ext ?_)
  obtain ⟨e0, e1, -, -, -, -⟩ := idx_facts t
  match a with
  | ⟨0, _⟩ => show win6_0.index t (0 : Fin 2) * 5000 + 1 * p.val = r.val; omega
  | ⟨1, _⟩ => show win6_0.index t (1 : Fin 2) * 10 + 1 * q.val = q.val; omega

/-- The bias row's block at every point is the whole row. -/
theorem read_bias (c : Dev nD) (t : Fin cfg6.N) (q : Fin 10) :
    iblk6 V c 1 t (ix2 (0 : Fin 1) q) = V c main_v79 (ix2 (0 : Fin 1) q) := by
  show V c main_v79 (((cfg6.win 1).blk t).view.emb (ix2 (0 : Fin 1) q)) = _
  refine congrArg _ (funext fun a => Fin.ext ?_)
  obtain ⟨-, -, e2, e3, -, -⟩ := idx_facts t
  match a with
  | ⟨0, _⟩ => show win6_1.index t (0 : Fin 2) * 1 + 1 * 0 = 0; omega
  | ⟨1, _⟩ => show win6_1.index t (1 : Fin 2) * 10 + 1 * q.val = q.val; omega

/-- What point t writes back is block t of G. -/
theorem flushed_eq (c : Dev nD) (A : FVec Ideal S50000x10 .f32) (Bv : FVec Ideal S10 .f32)
    (hA : V c main_v78 = A) (hBv : ∀ q : Fin 10, V c main_v79 (ix2 (0 : Fin 1) q) = Bv (ix1 q))
    (G : S50000x10.Idx → Elt Ideal .f32)
    (hG : ∀ (r : Fin 50000) (q : Fin 10), G (ix2 r q)
      = A (ix2 r q) + Bv (ix1 q))
    (t : Fin cfg6.N) :
    (dat6 V c).flushed 2 t = ((cfg6.win 2).blk t).view.read (Elt Ideal) G := by
  subst hA
  show (cfg6.win 2).cut (grid6.coords t) ((dat6 V c).after 2 t) = _
  rw [after6_2]
  unfold out6_2
  rw [View.canon_unit_zero hz]
  simp only [View.ld_unit_zero (S := S5000x10) hz, View.ld_unit_zero (S := S1x10) hz]
  funext j
  obtain ⟨p, q, rfl⟩ : ∃ (p : Fin 5000) (q : Fin 10), j = ix2 p q := ⟨j 0, j 1, eq_ix2 j⟩
  have ht : t.val < 10 := by have h := t.isLt; have hN : cfg6.N = 10 := N_6; omega
  let r : Fin 50000 := ⟨t.val * 5000 + p.val, by have := p.isLt; omega⟩
  have hemb : ((cfg6.win 2).blk t).view.emb (ix2 p q) = ix2 r q := by
    obtain ⟨-, -, -, -, e4, e5⟩ := idx_facts t
    funext a; apply Fin.ext
    match a with
    | ⟨0, _⟩ => show win6_2.index t (0 : Fin 2) * 5000 + 1 * p.val = t.val * 5000 + p.val; omega
    | ⟨1, _⟩ => show win6_2.index t (1 : Fin 2) * 10 + 1 * q.val = q.val; omega
  show k6_pay1 (iblk6 V c 0 t) (iblk6 V c 1 t) (ix2 p q) = G (((cfg6.win 2).blk t).view.emb (ix2 p q))
  rw [hemb, hG r q]
  refine (pay_entry (iblk6 V c 0 t) (iblk6 V c 1 t) p q).trans ?_
  rw [read_rows V c t p q r rfl, read_bias V c t q, hBv q]

/-- An index is in point t's block iff each coordinate is in the block's range. -/
theorem mem_blk (t : Fin cfg6.N) (i : S50000x10.Idx) :
    i ∈ ((cfg6.win 2).blk t).view.set ↔ ∀ a : Fin 2, win6_2.index t a * S5000x10.size a ≤ (i a).val ∧ (i a).val < win6_2.index t a * S5000x10.size a + S5000x10.size a := by
  show i ∈ ((View.whole main_v80).slice (win6_2.rect t)).set ↔ _
  rw [View.set_slice_whole, Rect.mem_set_unit]
  exact Iff.rfl

/-- The ten blocks tile the array: row r is in block r / 5000. -/
theorem cover (i : S50000x10.Idx) : ∃ t : Fin cfg6.N, (cfg6.win 2).flush t = true ∧ i ∈ ((cfg6.win 2).blk t).view.set := by
  have hi0 : (i 0).val < 50000 := (i 0).isLt
  have hi1 : (i 1).val < 10 := (i 1).isLt
  let t : Fin cfg6.N := ⟨(i 0).val / 5000, by rw [show cfg6.N = 10 from N_6]; omega⟩
  refine ⟨t, flush6_2 t, ?_⟩
  rw [mem_blk]
  obtain ⟨-, -, -, -, e4, e5⟩ := idx_facts t
  have htv : t.val = (i 0).val / 5000 := rfl
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 10 ≤ (i 1).val ∧ (i 1).val < win6_2.index t (1 : Fin 2) * 10 + 10; omega

/-- The region's output array after its ten points is G. -/
theorem final (c : Dev nD) (A : FVec Ideal S50000x10 .f32) (Bv : FVec Ideal S10 .f32)
    (hA : V c main_v78 = A) (hBv : ∀ q : Fin 10, V c main_v79 (ix2 (0 : Fin 1) q) = Bv (ix1 q))
    (G : S50000x10.Idx → Elt Ideal .f32)
    (hG : ∀ (r : Fin 50000) (q : Fin 10), G (ix2 r q)
      = A (ix2 r q) + Bv (ix1 q)) :
    (dat6 V c).arrAt 2 cfg6.N = G :=
  (dat6 V c).arrAt_eq_of_cover 2 G (fun t _ => flushed_eq V c A Bv hA hBv G hG t) cover

end Cert.KernelIdeal.Bias6

end
-- ==== Proof.RefDense.lean ====
/-
  The reference's dense stages read at an entry, at the instance where floats are extended reals. A bias broadcast
  over the rows reads the bias vector at the entry's column; a ReLU's second operand is the zero word everywhere;
  a dot_general contracting the left operand's columns with the right operand's rows is, at (r, q), the plain sum
  over k of left[r, k] · right[k, q]. Composed: the embedder's two layers as nested sums, each graph layer's
  projection as a plain sum of the previous activation, and each layer's bias (and ReLU) after the scatter-add,
  whose own value stays an opaque term here.
-/
import proofs.«159229_j86457691668579_1_alg».proof.Proof.RefReadP
import Idealize.ShloMosaic.Lib.ValueIdx

noncomputable section

namespace Cert.ReferenceIdeal.RefDense

open Cert.ReferenceIdeal Cert.ReferenceIdeal.ReadP Idealize.ShloMosaic Idealize.ShloMosaic.ValueIdx

variable (x0 : (⟨S50000x64, .f32⟩ : BufTy).Contents (Elt Ideal))
  (x1 : (⟨S2x800000, .i32⟩ : BufTy).Contents (Elt Ideal))
  (x2 : (⟨S50000, .i32⟩ : BufTy).Contents (Elt Ideal))
  (x3 : (⟨S64x64, .f32⟩ : BufTy).Contents (Elt Ideal))
  (x4 : (⟨S64, .f32⟩ : BufTy).Contents (Elt Ideal))
  (x5 : (⟨S64x64, .f32⟩ : BufTy).Contents (Elt Ideal))
  (x6 : (⟨S64, .f32⟩ : BufTy).Contents (Elt Ideal))
  (x7 : (⟨S64x128, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))
  (x11 : (⟨S128x10, .f32⟩ : BufTy).Contents (Elt Ideal))
  (x12 : (⟨S10, .f32⟩ : BufTy).Contents (Elt Ideal))

/-- The bias broadcast over the rows, read at (r, q): the bias vector at q. -/
theorem bias_v32 (r : Fin 50000) (q : Fin 64) : val_main_v32 (F := Ideal) x4 (ix2 r q) = x4 (ix1 q) :=
  (val_main_v32_apply x4 _).trans ((val_main_v31_apply x4 _).trans (congrArg x4 (funext fun a => Fin.ext (by match a with | ⟨0, _⟩ => rfl))))

/-- The bias broadcast over the rows, read at (r, q): the bias vector at q. -/
theorem bias_v37 (r : Fin 50000) (q : Fin 64) : val_main_v37 (F := Ideal) x6 (ix2 r q) = x6 (ix1 q) :=
  (val_main_v37_apply x6 _).trans ((val_main_v36_apply x6 _).trans (congrArg x6 (funext fun a => Fin.ext (by match a with | ⟨0, _⟩ => rfl))))

/-- The bias broadcast over the rows, read at (r, q): the bias vector at q. -/
theorem bias_v55 (r : Fin 50000) (q : Fin 128) : val_main_v55 (F := Ideal) x8 (ix2 r q) = x8 (ix1 q) :=
  (val_main_v55_apply x8 _).trans ((val_main_v54_apply x8 _).trans (congrArg x8 (funext fun a => Fin.ext (by match a with | ⟨0, _⟩ => rfl))))

/-- The bias broadcast over the rows, read at (r, q): the bias vector at q. -/
theorem bias_v73 (r : Fin 50000) (q : Fin 128) : val_main_v73 (F := Ideal) x10 (ix2 r q) = x10 (ix1 q) :=
  (val_main_v73_apply x10 _).trans ((val_main_v72_apply x10 _).trans (congrArg x10 (funext fun a => Fin.ext (by match a with | ⟨0, _⟩ => rfl))))

/-- The bias broadcast over the rows, read at (r, q): the bias vector at q. -/
theorem bias_v91 (r : Fin 50000) (q : Fin 10) : val_main_v91 (F := Ideal) x12 (ix2 r q) = x12 (ix1 q) :=
  (val_main_v91_apply x12 _).trans ((val_main_v90_apply x12 _).trans (congrArg x12 (funext fun a => Fin.ext (by match a with | ⟨0, _⟩ => rfl))))

/-- The ReLU's broadcast zero, read at an entry: the zero word. -/
theorem zero_call1 (r : Fin 50000) (q : Fin 64) : val_main_call1_v0 (F := Ideal) (ix2 r q) = Ideal.ofBits .f32 0x00000000#32 :=
  (val_main_call1_v0_apply _).trans (val_main_call1_cst_apply _)

/-- The ReLU's broadcast zero, read at an entry: the zero word. -/
theorem zero_call2 (r : Fin 50000) (q : Fin 64) : val_main_call2_v0 (F := Ideal) (ix2 r q) = Ideal.ofBits .f32 0x00000000#32 :=
  (val_main_call2_v0_apply _).trans (val_main_call2_cst_apply _)

/-- The ReLU's broadcast zero, read at an entry: the zero word. -/
theorem zero_call3 (r : Fin 50000) (q : Fin 128) : val_main_call3_v0 (F := Ideal) (ix2 r q) = Ideal.ofBits .f32 0x00000000#32 :=
  (val_main_call3_v0_apply _).trans (val_main_call3_cst_apply _)

/-- The ReLU's broadcast zero, read at an entry: the zero word. -/
theorem zero_call4 (r : Fin 50000) (q : Fin 128) : val_main_call4_v0 (F := Ideal) (ix2 r q) = Ideal.ofBits .f32 0x00000000#32 :=
  (val_main_call4_v0_apply _).trans (val_main_call4_cst_apply _)

/-- The embedder's first layer: entry (r, j) is max(Σ_k x[r, k] · W1[k, j] + b1[j], 0). -/
theorem v34_entry (r : Fin 50000) (j : Fin 64) :
    val_main_v34 (F := Ideal) x0 x3 x4 (ix2 r j)
      = max ((∑ k : Fin 64, x0 (ix2 r k) * x3 (ix2 k j)) + x4 (ix1 j)) (Ideal.ofBits .f32 0x00000000#32) :=
  (val_main_v34_apply x0 x3 x4 _).trans (congrArg₂ max
    ((val_main_v33_apply x0 x3 x4 _).trans (congrArg₂ (· + ·)
      ((val_main_v30_apply x0 x3 _).trans (Finset.sum_congr rfl fun k _ =>
        congrArg₂ (· * ·) (congrArg x0 (funext fun a => Fin.ext (by match a with | ⟨0, _⟩ => rfl | ⟨1, _⟩ => rfl))) (congrArg x3 (funext fun a => Fin.ext (by match a with | ⟨0, _⟩ => rfl | ⟨1, _⟩ => rfl)))))
      (bias_v32 x4 r j))) (zero_call1 r j))

/-- The embedder: entry (r, q) is max(Σ_j max(Σ_k x[r, k] · W1[k, j] + b1[j], 0) · W2[j, q] + b2[q], 0). -/
theorem v39_entry (r : Fin 50000) (q : Fin 64) :
    val_main_v39 (F := Ideal) x0 x3 x4 x5 x6 (ix2 r q)
      = max ((∑ j : Fin 64, max ((∑ k : Fin 64, x0 (ix2 r k) * x3 (ix2 k j)) + x4 (ix1 j)) (Ideal.ofBits .f32 0x00000000#32) * x5 (ix2 j q)) + x6 (ix1 q)) (Ideal.ofBits .f32 0x00000000#32) :=
  (val_main_v39_apply x0 x3 x4 x5 x6 _).trans (congrArg₂ max
    ((val_main_v38_apply x0 x3 x4 x5 x6 _).trans (congrArg₂ (· + ·)
      ((val_main_v35_apply x0 x3 x4 x5 _).trans (Finset.sum_congr rfl fun j _ =>
        congrArg₂ (· * ·) ((congrArg (val_main_v34 (F := Ideal) x0 x3 x4) (funext fun a => Fin.ext (by match a with | ⟨0, _⟩ => rfl | ⟨1, _⟩ => rfl))).trans (v34_entry x0 x3 x4 r j)) (congrArg x5 (funext fun a => Fin.ext (by match a with | ⟨0, _⟩ => rfl | ⟨1, _⟩ => rfl)))))
      (bias_v37 x6 r q))) (zero_call2 r q))

/-- The first graph layer's projection: entry (r, q) is the plain sum over the inner axis. -/
theorem v40_entry (r : Fin 50000) (q : Fin 128) :
    val_main_v40 (F := Ideal) x0 x3 x4 x5 x6 x7 (ix2 r q) = ∑ k : Fin 64, val_main_v39 (F := Ideal) x0 x3 x4 x5 x6 (ix2 r k) * x7 (ix2 k q) :=
  (val_main_v40_apply x0 x3 x4 x5 x6 x7 _).trans (Finset.sum_congr rfl fun k _ =>
    congrArg₂ (· * ·) (congrArg (val_main_v39 (F := Ideal) x0 x3 x4 x5 x6) (funext fun a => Fin.ext (by match a with | ⟨0, _⟩ => rfl | ⟨1, _⟩ => rfl))) (congrArg x7 (funext fun a => Fin.ext (by match a with | ⟨0, _⟩ => rfl | ⟨1, _⟩ => rfl))))

/-- The first graph layer after its scatter-add: entry (r, q) is max(summed[r, q] + b[q], 0). -/
theorem v57_entry (r : Fin 50000) (q : Fin 128) :
    val_main_v57 (F := Ideal) x0 x1 x3 x4 x5 x6 x7 x8 (ix2 r q)
      = max (val_main_v53 (F := Ideal) x0 x1 x3 x4 x5 x6 x7 (ix2 r q) + x8 (ix1 q)) (Ideal.ofBits .f32 0x00000000#32) :=
  (val_main_v57_apply x0 x1 x3 x4 x5 x6 x7 x8 _).trans (congrArg₂ max
    ((val_main_v56_apply x0 x1 x3 x4 x5 x6 x7 x8 _).trans (congrArg₂ (· + ·) rfl (bias_v55 x8 r q))) (zero_call3 r q))

/-- The second graph layer's projection: entry (r, q) is the plain sum over the inner axis. -/
theorem v58_entry (r : Fin 50000) (q : Fin 128) :
    val_main_v58 (F := Ideal) x0 x1 x3 x4 x5 x6 x7 x8 x9 (ix2 r q) = ∑ k : Fin 128, val_main_v57 (F := Ideal) x0 x1 x3 x4 x5 x6 x7 x8 (ix2 r k) * x9 (ix2 k q) :=
  (val_main_v58_apply x0 x1 x3 x4 x5 x6 x7 x8 x9 _).trans (Finset.sum_congr rfl fun k _ =>
    congrArg₂ (· * ·) (congrArg (val_main_v57 (F := Ideal) x0 x1 x3 x4 x5 x6 x7 x8) (funext fun a => Fin.ext (by match a with | ⟨0, _⟩ => rfl | ⟨1, _⟩ => rfl))) (congrArg x9 (funext fun a => Fin.ext (by match a with | ⟨0, _⟩ => rfl | ⟨1, _⟩ => rfl))))

/-- The second graph layer after its scatter-add: entry (r, q) is max(summed[r, q] + b[q], 0). -/
theorem v75_entry (r : Fin 50000) (q : Fin 128) :
    val_main_v75 (F := Ideal) x0 x1 x3 x4 x5 x6 x7 x8 x9 x10 (ix2 r q)
      = max (val_main_v71 (F := Ideal) x0 x1 x3 x4 x5 x6 x7 x8 x9 (ix2 r q) + x10 (ix1 q)) (Ideal.ofBits .f32 0x00000000#32) :=
  (val_main_v75_apply x0 x1 x3 x4 x5 x6 x7 x8 x9 x10 _).trans (congrArg₂ max
    ((val_main_v74_apply x0 x1 x3 x4 x5 x6 x7 x8 x9 x10 _).trans (congrArg₂ (· + ·) rfl (bias_v73 x10 r q))) (zero_call4 r q))

/-- The third graph layer's projection: entry (r, q) is the plain sum over the inner axis. -/
theorem v76_entry (r : Fin 50000) (q : Fin 10) :
    val_main_v76 (F := Ideal) x0 x1 x3 x4 x5 x6 x7 x8 x9 x10 x11 (ix2 r q) = ∑ k : Fin 128, val_main_v75 (F := Ideal) x0 x1 x3 x4 x5 x6 x7 x8 x9 x10 (ix2 r k) * x11 (ix2 k q) :=
  (val_main_v76_apply x0 x1 x3 x4 x5 x6 x7 x8 x9 x10 x11 _).trans (Finset.sum_congr rfl fun k _ =>
    congrArg₂ (· * ·) (congrArg (val_main_v75 (F := Ideal) x0 x1 x3 x4 x5 x6 x7 x8 x9 x10) (funext fun a => Fin.ext (by match a with | ⟨0, _⟩ => rfl | ⟨1, _⟩ => rfl))) (congrArg x11 (funext fun a => Fin.ext (by match a with | ⟨0, _⟩ => rfl | ⟨1, _⟩ => rfl))))

/-- The third graph layer after its scatter-add (no activation): entry (r, q) is summed[r, q] + b3[q]. -/
theorem v92_entry (r : Fin 50000) (q : Fin 10) :
    val_main_v92 (F := Ideal) x0 x1 x3 x4 x5 x6 x7 x8 x9 x10 x11 x12 (ix2 r q)
      = val_main_v89 (F := Ideal) x0 x1 x3 x4 x5 x6 x7 x8 x9 x10 x11 (ix2 r q) + x12 (ix1 q) :=
  (val_main_v92_apply x0 x1 x3 x4 x5 x6 x7 x8 x9 x10 x11 x12 _).trans (congrArg₂ (· + ·) rfl (bias_v91 x12 r q))

end Cert.ReferenceIdeal.RefDense

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibFoldSplit.lean ====
/-
  Two general facts about a straight line of host operations, for reading such a line back a stretch at a time.

  * `after_append`, `after_take_drop`: the contents after a list of operations is the contents after its tail from the
    contents after its head — so a long line can be cut at any position, the first part read once, and the second part read
    over the first part's buffers as opaque arrays.
  * `ofBuf_toBuf`: an operation of an outlined function is stated over typed references, whose contents are moved to the
    buffer's own type and back along the reference's type equation; a value moved there and back is the value. Unlike a
    rewrite that must recognise each move as the identity, this cancels the pair as it stands, whatever the buffer's
    position in the signature.
-/
import Idealize.ShloMosaic.Lib.StableHlo.Run

noncomputable section

namespace Cert.FoldSplit

open Idealize.ShloMosaic Idealize.ShloMosaic.StableHlo

variable {τ : Topo} {sig : RefSig} {Val : EltTy → Type}

/-- The contents after two lists of operations run one after the other: the second list's, from the first's. -/
theorem after_append (l1 l2 : List (HloOp τ sig Val)) (V : Valuation τ sig Val) :
    after (l1 ++ l2) V = after l2 (after l1 V) := by
  induction l1 generalizing V with
  | nil => rfl
  | cons op l ih => exact ih _

/-- A list of operations cut at position `n`: its first `n` operations, then the rest from what they leave. -/
theorem after_take_drop (n : ℕ) (l : List (HloOp τ sig Val)) (V : Valuation τ sig Val) :
    after l V = after (l.drop n) (after (l.take n) V) :=
  (congrArg (fun k => after k V) (List.take_append_drop n l).symm).trans (after_append _ _ _)

/-- Contents moved to a typed reference's own buffer type and back are the contents. -/
theorem ofBuf_toBuf {T : BufTy} (x : TRef sig T) (v : T.Contents Val) : x.ofBuf (x.toBuf v) = v := by
  obtain ⟨r, h, h1, h2⟩ := x
  subst h
  rfl

end Cert.FoldSplit

end
-- ==== Proof.LibTypedRefCast.lean ====
/-
  Transport of buffer contents along a typed reference's type equation. A host function the compiler outlined
  (a where, a relu, a clip) is printed with typed references: each of its operations reads its operands through
  `ofBuf` and writes its result through `toBuf`, which are casts along the reference's equation "the buffer's type is
  the value's type". Both are the identity up to that type: stated as heterogeneous equalities and proved by
  substituting the equation, so that no definitional unfolding of the buffer-type table is ever asked for. With
  `eq_of_heq` they rewrite a cast away wherever the two types are already known to agree, which a comparison by
  definitional unfolding does for one cast but not for a nest of them.
-/
import Idealize.ShloMosaic.Lib.StableHlo.Run

namespace Cert.TypedRefCast

open Idealize.ShloMosaic Idealize.ShloMosaic.StableHlo

variable {sig : RefSig} {Val : EltTy → Type}

/-- Contents read through a typed reference are the buffer's contents, up to the buffer's type. -/
theorem ofBuf_heq {T : BufTy} (x : TRef sig T) (w : x.ref.ty.Contents Val) : HEq (x.ofBuf w) w := by
  obtain ⟨r, h, h1, h2⟩ := x; subst h; rfl

/-- Contents written through a typed reference are the value's contents, up to the buffer's type. -/
theorem toBuf_heq {T : BufTy} (x : TRef sig T) (v : T.Contents Val) : HEq (x.toBuf v) v := by
  obtain ⟨r, h, h1, h2⟩ := x; subst h; rfl

end Cert.TypedRefCast
-- ==== Proof.Chain.lean ====
/-
  The idealized kernel's buffers at every segment boundary, as the reference's stage functions of the argument
  arrays. @main alternates stretches of host operations with eight regions. Walking from the launch:
  the edge structure (sources, destinations and symmetric norms, from the edge list alone) is computed by the same
  host operations in both programs; region 0 leaves the embedder's output; then three times a projection region,
  the shared gather / scale / scatter-add stretch, and a bias (and ReLU) region; then the two shared pooling
  scatter-adds. Each region's output array is the reference's stage because its entries are (a region's value
  read at an entry, the reference's dense stage read at an entry); each host stretch's result is the reference's
  stage because it is the same operations applied to buffers already known equal. Buffers a region does not stage
  and a host stretch does not write are carried unchanged from boundary to boundary.
-/
import proofs.«159229_j86457691668579_1_alg».proof.Proof.Gen.KernelIdeal.Frame
import proofs.«159229_j86457691668579_1_alg».proof.Proof.Embed0
import proofs.«159229_j86457691668579_1_alg».proof.Proof.Project1
import proofs.«159229_j86457691668579_1_alg».proof.Proof.Bias2
import proofs.«159229_j86457691668579_1_alg».proof.Proof.Project3
import proofs.«159229_j86457691668579_1_alg».proof.Proof.Bias4
import proofs.«159229_j86457691668579_1_alg».proof.Proof.Project5
import proofs.«159229_j86457691668579_1_alg».proof.Proof.Bias6
import proofs.«159229_j86457691668579_1_alg».proof.Proof.RefDense
import proofs.«159229_j86457691668579_1_alg».proof.Proof.LibColumnLayout
import proofs.«159229_j86457691668579_1_alg».proof.Proof.LibFoldSplit
import proofs.«159229_j86457691668579_1_alg».proof.Proof.LibTypedRefCast
import Idealize.ShloMosaic.Lib.ValueLayout
import Idealize.ShloMosaic.Lib.StableHlo.Run

set_option maxRecDepth 16384

noncomputable section

namespace Cert.KernelIdeal.Chain

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen
open Cert.ReferenceIdeal.ReadP

variable (m : (ℓ : Loc nD τ sig) → Buf (Elt Ideal) ℓ) (ρ : Dev nD → PrngReg) (c : Dev nD)

/-- Argument 0 of @main as launched. -/
abbrev a0 : (⟨S50000x64, .f32⟩ : BufTy).Contents (Elt Ideal) := m ((c : Thread nD τ).loc main_arg0)
/-- Argument 1 of @main as launched. -/
abbrev a1 : (⟨S2x800000, .i32⟩ : BufTy).Contents (Elt Ideal) := m ((c : Thread nD τ).loc main_arg1)
/-- Argument 2 of @main as launched. -/
abbrev a2 : (⟨S50000, .i32⟩ : BufTy).Contents (Elt Ideal) := m ((c : Thread nD τ).loc main_arg2)
/-- Argument 3 of @main as launched. -/
abbrev a3 : (⟨S64x64, .f32⟩ : BufTy).Contents (Elt Ideal) := m ((c : Thread nD τ).loc main_arg3)
/-- Argument 4 of @main as launched. -/
abbrev a4 : (⟨S64, .f32⟩ : BufTy).Contents (Elt Ideal) := m ((c : Thread nD τ).loc main_arg4)
/-- Argument 5 of @main as launched. -/
abbrev a5 : (⟨S64x64, .f32⟩ : BufTy).Contents (Elt Ideal) := m ((c : Thread nD τ).loc main_arg5)
/-- Argument 6 of @main as launched. -/
abbrev a6 : (⟨S64, .f32⟩ : BufTy).Contents (Elt Ideal) := m ((c : Thread nD τ).loc main_arg6)
/-- Argument 7 of @main as launched. -/
abbrev a7 : (⟨S64x128, .f32⟩ : BufTy).Contents (Elt Ideal) := m ((c : Thread nD τ).loc main_arg7)
/-- Argument 8 of @main as launched. -/
abbrev a8 : (⟨S128, .f32⟩ : BufTy).Contents (Elt Ideal) := m ((c : Thread nD τ).loc main_arg8)
/-- Argument 9 of @main as launched. -/
abbrev a9 : (⟨S128x128, .f32⟩ : BufTy).Contents (Elt Ideal) := m ((c : Thread nD τ).loc main_arg9)
/-- Argument 10 of @main as launched. -/
abbrev a10 : (⟨S128, .f32⟩ : BufTy).Contents (Elt Ideal) := m ((c : Thread nD τ).loc main_arg10)
/-- Argument 11 of @main as launched. -/
abbrev a11 : (⟨S128x10, .f32⟩ : BufTy).Contents (Elt Ideal) := m ((c : Thread nD τ).loc main_arg11)
/-- Argument 12 of @main as launched. -/
abbrev a12 : (⟨S10, .f32⟩ : BufTy).Contents (Elt Ideal) := m ((c : Thread nD τ).loc main_arg12)

/-! ## Region 0's entry: the three host stretches before it -/

theorem k3_v3 : W3 m ρ c (Proc.devRef .tc main_v3) = val_main_v3 (F := Ideal) (a1 m c) := by
  show StableHlo.after hostOps0_2 (StableHlo.after hostOps0_1 (StableHlo.after hostOps0 (W0 m ρ c))) (Proc.devRef .tc main_v3) = _
  after_results_simp <;> rfl

theorem k3_v6 : W3 m ρ c (Proc.devRef .tc main_v6) = val_main_v6 (F := Ideal) (a1 m c) := by
  show StableHlo.after hostOps0_2 (StableHlo.after hostOps0_1 (StableHlo.after hostOps0 (W0 m ρ c))) (Proc.devRef .tc main_v6) = _
  after_results_simp <;> rfl

/-! The symmetric edge norms, boundary by boundary: the degree comparison, the inverse square root and the zero after
    the first stretch; the selected inverse root after the outlined select; the product of its two gathers after the
    third stretch. Each earlier boundary stays an opaque term. -/

theorem j1_v3 : W1 m ρ c (Proc.devRef .tc main_v3) = val_main_v3 (F := Ideal) (a1 m c) := by
  show StableHlo.after hostOps0 (W0 m ρ c) (Proc.devRef .tc main_v3) = _
  after_results_simp <;> rfl

theorem j1_v6 : W1 m ρ c (Proc.devRef .tc main_v6) = val_main_v6 (F := Ideal) (a1 m c) := by
  show StableHlo.after hostOps0 (W0 m ρ c) (Proc.devRef .tc main_v6) = _
  after_results_simp <;> rfl

theorem j1_v12 : W1 m ρ c (Proc.devRef .tc main_v12) = val_main_v12 (F := Ideal) (a1 m c) := by
  show StableHlo.after hostOps0 (W0 m ρ c) (Proc.devRef .tc main_v12) = _
  after_results_simp <;> rfl

theorem j1_v13 : W1 m ρ c (Proc.devRef .tc main_v13) = val_main_v13 (F := Ideal) (a1 m c) := by
  show StableHlo.after hostOps0 (W0 m ρ c) (Proc.devRef .tc main_v13) = _
  after_results_simp <;> rfl

theorem j1_cst_2 : W1 m ρ c (Proc.devRef .tc main_cst_2) = val_main_cst_2 (F := Ideal) := by
  show StableHlo.after hostOps0 (W0 m ρ c) (Proc.devRef .tc main_cst_2) = _
  after_results_simp <;> rfl

/-- The inverse root of the degree where the degree is positive, zero elsewhere. -/
theorem j2_v14 : W2 m ρ c (Proc.devRef .tc main_v14) = val_main_v14 (F := Ideal) (a1 m c) := by
  have h12 := j1_v12 m ρ c
  have h13 := j1_v13 m ρ c
  have h0 := j1_cst_2 m ρ c
  show StableHlo.after hostOps0_1 (W1 m ρ c) (Proc.devRef .tc main_v14) = _
  generalize W1 m ρ c = Wp at h12 h13 h0 ⊢
  after_results_simp
  rw [h12, h13, h0]
  simp only [Cert.FoldSplit.ofBuf_toBuf]
  rw [show (TRef.of main_v12 : TRef sig ⟨S50000, .i1⟩).ofBuf (val_main_v12 (F := Ideal) (a1 m c)) = val_main_v12 (F := Ideal) (a1 m c)
        from eq_of_heq (Cert.TypedRefCast.ofBuf_heq _ _),
      show (TRef.of main_v13 : TRef sig ⟨S50000, .f32⟩).ofBuf (val_main_v13 (F := Ideal) (a1 m c)) = val_main_v13 (F := Ideal) (a1 m c)
        from eq_of_heq (Cert.TypedRefCast.ofBuf_heq _ _),
      show (TRef.of main_cst_2 : TRef sig ⟨S_, .f32⟩).ofBuf (val_main_cst_2 (F := Ideal)) = val_main_cst_2 (F := Ideal)
        from eq_of_heq (Cert.TypedRefCast.ofBuf_heq _ _)]
  refine (eq_of_heq (Cert.TypedRefCast.toBuf_heq _ _)).trans ?_
  unfold val_main_v14 val_main_call0_v1 val_main_call0_v0
  rfl

theorem j2_v3 : W2 m ρ c (Proc.devRef .tc main_v3) = val_main_v3 (F := Ideal) (a1 m c) :=
  (show StableHlo.after hostOps0_1 (W1 m ρ c) (Proc.devRef .tc main_v3) = W1 m ρ c (Proc.devRef .tc main_v3) by generalize W1 m ρ c = Wp; after_results_simp).trans (j1_v3 m ρ c)

theorem j2_v6 : W2 m ρ c (Proc.devRef .tc main_v6) = val_main_v6 (F := Ideal) (a1 m c) :=
  (show StableHlo.after hostOps0_1 (W1 m ρ c) (Proc.devRef .tc main_v6) = W1 m ρ c (Proc.devRef .tc main_v6) by generalize W1 m ρ c = Wp; after_results_simp).trans (j1_v6 m ρ c)

/-- The edge norms: the inverse root gathered at the sources times the inverse root gathered at the destinations. -/
theorem k3_v29 : W3 m ρ c (Proc.devRef .tc main_v29) = val_main_v29 (F := Ideal) (a1 m c) := by
  have h14 := j2_v14 m ρ c
  have h3 := j2_v3 m ρ c
  have h6 := j2_v6 m ρ c
  show StableHlo.after hostOps0_2 (W2 m ρ c) (Proc.devRef .tc main_v29) = _
  generalize W2 m ρ c = Wp at h14 h3 h6 ⊢
  after_results_simp
  rw [h14, h3, h6]
  rfl

theorem k3_arg0 : W3 m ρ c (Proc.devRef .tc main_arg0) = a0 m c := by
  show StableHlo.after hostOps0_2 (StableHlo.after hostOps0_1 (StableHlo.after hostOps0 (W0 m ρ c))) (Proc.devRef .tc main_arg0) = _
  after_results_simp <;> rfl

theorem k3_arg2 : W3 m ρ c (Proc.devRef .tc main_arg2) = a2 m c := by
  show StableHlo.after hostOps0_2 (StableHlo.after hostOps0_1 (StableHlo.after hostOps0 (W0 m ρ c))) (Proc.devRef .tc main_arg2) = _
  after_results_simp <;> rfl

theorem k3_arg3 : W3 m ρ c (Proc.devRef .tc main_arg3) = a3 m c := by
  show StableHlo.after hostOps0_2 (StableHlo.after hostOps0_1 (StableHlo.after hostOps0 (W0 m ρ c))) (Proc.devRef .tc main_arg3) = _
  after_results_simp <;> rfl

theorem k3_arg5 : W3 m ρ c (Proc.devRef .tc main_arg5) = a5 m c := by
  show StableHlo.after hostOps0_2 (StableHlo.after hostOps0_1 (StableHlo.after hostOps0 (W0 m ρ c))) (Proc.devRef .tc main_arg5) = _
  after_results_simp <;> rfl

theorem k3_arg7 : W3 m ρ c (Proc.devRef .tc main_arg7) = a7 m c := by
  show StableHlo.after hostOps0_2 (StableHlo.after hostOps0_1 (StableHlo.after hostOps0 (W0 m ρ c))) (Proc.devRef .tc main_arg7) = _
  after_results_simp <;> rfl

theorem k3_arg8 : W3 m ρ c (Proc.devRef .tc main_arg8) = a8 m c := by
  show StableHlo.after hostOps0_2 (StableHlo.after hostOps0_1 (StableHlo.after hostOps0 (W0 m ρ c))) (Proc.devRef .tc main_arg8) = _
  after_results_simp <;> rfl

theorem k3_arg9 : W3 m ρ c (Proc.devRef .tc main_arg9) = a9 m c := by
  show StableHlo.after hostOps0_2 (StableHlo.after hostOps0_1 (StableHlo.after hostOps0 (W0 m ρ c))) (Proc.devRef .tc main_arg9) = _
  after_results_simp <;> rfl

theorem k3_arg10 : W3 m ρ c (Proc.devRef .tc main_arg10) = a10 m c := by
  show StableHlo.after hostOps0_2 (StableHlo.after hostOps0_1 (StableHlo.after hostOps0 (W0 m ρ c))) (Proc.devRef .tc main_arg10) = _
  after_results_simp <;> rfl

theorem k3_arg11 : W3 m ρ c (Proc.devRef .tc main_arg11) = a11 m c := by
  show StableHlo.after hostOps0_2 (StableHlo.after hostOps0_1 (StableHlo.after hostOps0 (W0 m ρ c))) (Proc.devRef .tc main_arg11) = _
  after_results_simp <;> rfl

theorem k3_arg12 : W3 m ρ c (Proc.devRef .tc main_arg12) = a12 m c := by
  show StableHlo.after hostOps0_2 (StableHlo.after hostOps0_1 (StableHlo.after hostOps0 (W0 m ρ c))) (Proc.devRef .tc main_arg12) = _
  after_results_simp <;> rfl

/-- The bias row the host reshapes for the next region, read at (0, q): the bias vector at q. -/
theorem k3_v30_entry (q : Fin 64) : W3 m ρ c (Proc.devRef .tc main_v30) (ix2 (0 : Fin 1) q) = a4 m c (ix1 q) := by
  have e : W3 m ρ c (Proc.devRef .tc main_v30) = shapeCast S1x64 (a4 m c) shapeCasts_S64_S1x64 := by
    show StableHlo.after hostOps0_2 (StableHlo.after hostOps0_1 (StableHlo.after hostOps0 (W0 m ρ c))) (Proc.devRef .tc main_v30) = _
    after_results_simp <;> rfl
  rw [e]
  exact shapeCast_a_1a_apply _ _ (0 : Fin 1) q

/-- The bias row the host reshapes for the next region, read at (0, q): the bias vector at q. -/
theorem k3_v31_entry (q : Fin 64) : W3 m ρ c (Proc.devRef .tc main_v31) (ix2 (0 : Fin 1) q) = a6 m c (ix1 q) := by
  have e : W3 m ρ c (Proc.devRef .tc main_v31) = shapeCast S1x64 (a6 m c) shapeCasts_S64_S1x64 := by
    show StableHlo.after hostOps0_2 (StableHlo.after hostOps0_1 (StableHlo.after hostOps0 (W0 m ρ c))) (Proc.devRef .tc main_v31) = _
    after_results_simp <;> rfl
  rw [e]
  exact shapeCast_a_1a_apply _ _ (0 : Fin 1) q

/-! ## Buffers carried unchanged across regions that do not stage them and stretches that do not write them -/

theorem k4_v3 : W4 m ρ c (Proc.devRef .tc main_v3) = val_main_v3 (F := Ideal) (a1 m c) :=
  (W4_of_ne m ρ c main_v3 (by decide)).trans (k3_v3 m ρ c)
theorem k5_v3 : W5 m ρ c (Proc.devRef .tc main_v3) = val_main_v3 (F := Ideal) (a1 m c) :=
  (W5_of_ne m ρ c main_v3 (by decide)).trans (k4_v3 m ρ c)
theorem k6_v3 : W6 m ρ c (Proc.devRef .tc main_v3) = val_main_v3 (F := Ideal) (a1 m c) :=
  (show StableHlo.after hostOps2 (W5 m ρ c) (Proc.devRef .tc main_v3) = W5 m ρ c (Proc.devRef .tc main_v3) by after_results_simp).trans (k5_v3 m ρ c)
theorem k7_v3 : W7 m ρ c (Proc.devRef .tc main_v3) = val_main_v3 (F := Ideal) (a1 m c) :=
  (W7_of_ne m ρ c main_v3 (by decide)).trans (k6_v3 m ρ c)
theorem k8_v3 : W8 m ρ c (Proc.devRef .tc main_v3) = val_main_v3 (F := Ideal) (a1 m c) :=
  (W8_of_ne m ρ c main_v3 (by decide)).trans (k7_v3 m ρ c)
theorem k9_v3 : W9 m ρ c (Proc.devRef .tc main_v3) = val_main_v3 (F := Ideal) (a1 m c) :=
  (show StableHlo.after hostOps4 (W8 m ρ c) (Proc.devRef .tc main_v3) = W8 m ρ c (Proc.devRef .tc main_v3) by after_results_simp).trans (k8_v3 m ρ c)
theorem k10_v3 : W10 m ρ c (Proc.devRef .tc main_v3) = val_main_v3 (F := Ideal) (a1 m c) :=
  (W10_of_ne m ρ c main_v3 (by decide)).trans (k9_v3 m ρ c)
theorem k11_v3 : W11 m ρ c (Proc.devRef .tc main_v3) = val_main_v3 (F := Ideal) (a1 m c) :=
  (W11_of_ne m ρ c main_v3 (by decide)).trans (k10_v3 m ρ c)
theorem k4_v6 : W4 m ρ c (Proc.devRef .tc main_v6) = val_main_v6 (F := Ideal) (a1 m c) :=
  (W4_of_ne m ρ c main_v6 (by decide)).trans (k3_v6 m ρ c)
theorem k5_v6 : W5 m ρ c (Proc.devRef .tc main_v6) = val_main_v6 (F := Ideal) (a1 m c) :=
  (W5_of_ne m ρ c main_v6 (by decide)).trans (k4_v6 m ρ c)
theorem k6_v6 : W6 m ρ c (Proc.devRef .tc main_v6) = val_main_v6 (F := Ideal) (a1 m c) :=
  (show StableHlo.after hostOps2 (W5 m ρ c) (Proc.devRef .tc main_v6) = W5 m ρ c (Proc.devRef .tc main_v6) by after_results_simp).trans (k5_v6 m ρ c)
theorem k7_v6 : W7 m ρ c (Proc.devRef .tc main_v6) = val_main_v6 (F := Ideal) (a1 m c) :=
  (W7_of_ne m ρ c main_v6 (by decide)).trans (k6_v6 m ρ c)
theorem k8_v6 : W8 m ρ c (Proc.devRef .tc main_v6) = val_main_v6 (F := Ideal) (a1 m c) :=
  (W8_of_ne m ρ c main_v6 (by decide)).trans (k7_v6 m ρ c)
theorem k9_v6 : W9 m ρ c (Proc.devRef .tc main_v6) = val_main_v6 (F := Ideal) (a1 m c) :=
  (show StableHlo.after hostOps4 (W8 m ρ c) (Proc.devRef .tc main_v6) = W8 m ρ c (Proc.devRef .tc main_v6) by after_results_simp).trans (k8_v6 m ρ c)
theorem k10_v6 : W10 m ρ c (Proc.devRef .tc main_v6) = val_main_v6 (F := Ideal) (a1 m c) :=
  (W10_of_ne m ρ c main_v6 (by decide)).trans (k9_v6 m ρ c)
theorem k11_v6 : W11 m ρ c (Proc.devRef .tc main_v6) = val_main_v6 (F := Ideal) (a1 m c) :=
  (W11_of_ne m ρ c main_v6 (by decide)).trans (k10_v6 m ρ c)
theorem k4_v29 : W4 m ρ c (Proc.devRef .tc main_v29) = val_main_v29 (F := Ideal) (a1 m c) :=
  (W4_of_ne m ρ c main_v29 (by decide)).trans (k3_v29 m ρ c)
theorem k5_v29 : W5 m ρ c (Proc.devRef .tc main_v29) = val_main_v29 (F := Ideal) (a1 m c) :=
  (W5_of_ne m ρ c main_v29 (by decide)).trans (k4_v29 m ρ c)
theorem k6_v29 : W6 m ρ c (Proc.devRef .tc main_v29) = val_main_v29 (F := Ideal) (a1 m c) :=
  (show StableHlo.after hostOps2 (W5 m ρ c) (Proc.devRef .tc main_v29) = W5 m ρ c (Proc.devRef .tc main_v29) by after_results_simp).trans (k5_v29 m ρ c)
theorem k7_v29 : W7 m ρ c (Proc.devRef .tc main_v29) = val_main_v29 (F := Ideal) (a1 m c) :=
  (W7_of_ne m ρ c main_v29 (by decide)).trans (k6_v29 m ρ c)
theorem k8_v29 : W8 m ρ c (Proc.devRef .tc main_v29) = val_main_v29 (F := Ideal) (a1 m c) :=
  (W8_of_ne m ρ c main_v29 (by decide)).trans (k7_v29 m ρ c)
theorem k9_v29 : W9 m ρ c (Proc.devRef .tc main_v29) = val_main_v29 (F := Ideal) (a1 m c) :=
  (show StableHlo.after hostOps4 (W8 m ρ c) (Proc.devRef .tc main_v29) = W8 m ρ c (Proc.devRef .tc main_v29) by after_results_simp).trans (k8_v29 m ρ c)
theorem k10_v29 : W10 m ρ c (Proc.devRef .tc main_v29) = val_main_v29 (F := Ideal) (a1 m c) :=
  (W10_of_ne m ρ c main_v29 (by decide)).trans (k9_v29 m ρ c)
theorem k11_v29 : W11 m ρ c (Proc.devRef .tc main_v29) = val_main_v29 (F := Ideal) (a1 m c) :=
  (W11_of_ne m ρ c main_v29 (by decide)).trans (k10_v29 m ρ c)
theorem k4_arg7 : W4 m ρ c (Proc.devRef .tc main_arg7) = (a7 m c) :=
  (W4_of_ne m ρ c main_arg7 (by decide)).trans (k3_arg7 m ρ c)
theorem k4_arg8 : W4 m ρ c (Proc.devRef .tc main_arg8) = (a8 m c) :=
  (W4_of_ne m ρ c main_arg8 (by decide)).trans (k3_arg8 m ρ c)
theorem k5_arg8 : W5 m ρ c (Proc.devRef .tc main_arg8) = (a8 m c) :=
  (W5_of_ne m ρ c main_arg8 (by decide)).trans (k4_arg8 m ρ c)
theorem k4_arg9 : W4 m ρ c (Proc.devRef .tc main_arg9) = (a9 m c) :=
  (W4_of_ne m ρ c main_arg9 (by decide)).trans (k3_arg9 m ρ c)
theorem k5_arg9 : W5 m ρ c (Proc.devRef .tc main_arg9) = (a9 m c) :=
  (W5_of_ne m ρ c main_arg9 (by decide)).trans (k4_arg9 m ρ c)
theorem k6_arg9 : W6 m ρ c (Proc.devRef .tc main_arg9) = (a9 m c) :=
  (show StableHlo.after hostOps2 (W5 m ρ c) (Proc.devRef .tc main_arg9) = W5 m ρ c (Proc.devRef .tc main_arg9) by after_results_simp).trans (k5_arg9 m ρ c)
theorem k7_arg9 : W7 m ρ c (Proc.devRef .tc main_arg9) = (a9 m c) :=
  (W7_of_ne m ρ c main_arg9 (by decide)).trans (k6_arg9 m ρ c)
theorem k4_arg10 : W4 m ρ c (Proc.devRef .tc main_arg10) = (a10 m c) :=
  (W4_of_ne m ρ c main_arg10 (by decide)).trans (k3_arg10 m ρ c)
theorem k5_arg10 : W5 m ρ c (Proc.devRef .tc main_arg10) = (a10 m c) :=
  (W5_of_ne m ρ c main_arg10 (by decide)).trans (k4_arg10 m ρ c)
theorem k6_arg10 : W6 m ρ c (Proc.devRef .tc main_arg10) = (a10 m c) :=
  (show StableHlo.after hostOps2 (W5 m ρ c) (Proc.devRef .tc main_arg10) = W5 m ρ c (Proc.devRef .tc main_arg10) by after_results_simp).trans (k5_arg10 m ρ c)
theorem k7_arg10 : W7 m ρ c (Proc.devRef .tc main_arg10) = (a10 m c) :=
  (W7_of_ne m ρ c main_arg10 (by decide)).trans (k6_arg10 m ρ c)
theorem k8_arg10 : W8 m ρ c (Proc.devRef .tc main_arg10) = (a10 m c) :=
  (W8_of_ne m ρ c main_arg10 (by decide)).trans (k7_arg10 m ρ c)
theorem k4_arg11 : W4 m ρ c (Proc.devRef .tc main_arg11) = (a11 m c) :=
  (W4_of_ne m ρ c main_arg11 (by decide)).trans (k3_arg11 m ρ c)
theorem k5_arg11 : W5 m ρ c (Proc.devRef .tc main_arg11) = (a11 m c) :=
  (W5_of_ne m ρ c main_arg11 (by decide)).trans (k4_arg11 m ρ c)
theorem k6_arg11 : W6 m ρ c (Proc.devRef .tc main_arg11) = (a11 m c) :=
  (show StableHlo.after hostOps2 (W5 m ρ c) (Proc.devRef .tc main_arg11) = W5 m ρ c (Proc.devRef .tc main_arg11) by after_results_simp).trans (k5_arg11 m ρ c)
theorem k7_arg11 : W7 m ρ c (Proc.devRef .tc main_arg11) = (a11 m c) :=
  (W7_of_ne m ρ c main_arg11 (by decide)).trans (k6_arg11 m ρ c)
theorem k8_arg11 : W8 m ρ c (Proc.devRef .tc main_arg11) = (a11 m c) :=
  (W8_of_ne m ρ c main_arg11 (by decide)).trans (k7_arg11 m ρ c)
theorem k9_arg11 : W9 m ρ c (Proc.devRef .tc main_arg11) = (a11 m c) :=
  (show StableHlo.after hostOps4 (W8 m ρ c) (Proc.devRef .tc main_arg11) = W8 m ρ c (Proc.devRef .tc main_arg11) by after_results_simp).trans (k8_arg11 m ρ c)
theorem k10_arg11 : W10 m ρ c (Proc.devRef .tc main_arg11) = (a11 m c) :=
  (W10_of_ne m ρ c main_arg11 (by decide)).trans (k9_arg11 m ρ c)
theorem k4_arg12 : W4 m ρ c (Proc.devRef .tc main_arg12) = (a12 m c) :=
  (W4_of_ne m ρ c main_arg12 (by decide)).trans (k3_arg12 m ρ c)
theorem k5_arg12 : W5 m ρ c (Proc.devRef .tc main_arg12) = (a12 m c) :=
  (W5_of_ne m ρ c main_arg12 (by decide)).trans (k4_arg12 m ρ c)
theorem k6_arg12 : W6 m ρ c (Proc.devRef .tc main_arg12) = (a12 m c) :=
  (show StableHlo.after hostOps2 (W5 m ρ c) (Proc.devRef .tc main_arg12) = W5 m ρ c (Proc.devRef .tc main_arg12) by after_results_simp).trans (k5_arg12 m ρ c)
theorem k7_arg12 : W7 m ρ c (Proc.devRef .tc main_arg12) = (a12 m c) :=
  (W7_of_ne m ρ c main_arg12 (by decide)).trans (k6_arg12 m ρ c)
theorem k8_arg12 : W8 m ρ c (Proc.devRef .tc main_arg12) = (a12 m c) :=
  (W8_of_ne m ρ c main_arg12 (by decide)).trans (k7_arg12 m ρ c)
theorem k9_arg12 : W9 m ρ c (Proc.devRef .tc main_arg12) = (a12 m c) :=
  (show StableHlo.after hostOps4 (W8 m ρ c) (Proc.devRef .tc main_arg12) = W8 m ρ c (Proc.devRef .tc main_arg12) by after_results_simp).trans (k8_arg12 m ρ c)
theorem k10_arg12 : W10 m ρ c (Proc.devRef .tc main_arg12) = (a12 m c) :=
  (W10_of_ne m ρ c main_arg12 (by decide)).trans (k9_arg12 m ρ c)
theorem k11_arg12 : W11 m ρ c (Proc.devRef .tc main_arg12) = (a12 m c) :=
  (W11_of_ne m ρ c main_arg12 (by decide)).trans (k10_arg12 m ρ c)
theorem k4_arg2 : W4 m ρ c (Proc.devRef .tc main_arg2) = (a2 m c) :=
  (W4_of_ne m ρ c main_arg2 (by decide)).trans (k3_arg2 m ρ c)
theorem k5_arg2 : W5 m ρ c (Proc.devRef .tc main_arg2) = (a2 m c) :=
  (W5_of_ne m ρ c main_arg2 (by decide)).trans (k4_arg2 m ρ c)
theorem k6_arg2 : W6 m ρ c (Proc.devRef .tc main_arg2) = (a2 m c) :=
  (show StableHlo.after hostOps2 (W5 m ρ c) (Proc.devRef .tc main_arg2) = W5 m ρ c (Proc.devRef .tc main_arg2) by after_results_simp).trans (k5_arg2 m ρ c)
theorem k7_arg2 : W7 m ρ c (Proc.devRef .tc main_arg2) = (a2 m c) :=
  (W7_of_ne m ρ c main_arg2 (by decide)).trans (k6_arg2 m ρ c)
theorem k8_arg2 : W8 m ρ c (Proc.devRef .tc main_arg2) = (a2 m c) :=
  (W8_of_ne m ρ c main_arg2 (by decide)).trans (k7_arg2 m ρ c)
theorem k9_arg2 : W9 m ρ c (Proc.devRef .tc main_arg2) = (a2 m c) :=
  (show StableHlo.after hostOps4 (W8 m ρ c) (Proc.devRef .tc main_arg2) = W8 m ρ c (Proc.devRef .tc main_arg2) by after_results_simp).trans (k8_arg2 m ρ c)
theorem k10_arg2 : W10 m ρ c (Proc.devRef .tc main_arg2) = (a2 m c) :=
  (W10_of_ne m ρ c main_arg2 (by decide)).trans (k9_arg2 m ρ c)
theorem k11_arg2 : W11 m ρ c (Proc.devRef .tc main_arg2) = (a2 m c) :=
  (W11_of_ne m ρ c main_arg2 (by decide)).trans (k10_arg2 m ρ c)
theorem k12_arg2 : W12 m ρ c (Proc.devRef .tc main_arg2) = (a2 m c) :=
  (show StableHlo.after hostOps6 (W11 m ρ c) (Proc.devRef .tc main_arg2) = W11 m ρ c (Proc.devRef .tc main_arg2) by after_results_simp).trans (k11_arg2 m ρ c)
theorem k13_arg2 : W13 m ρ c (Proc.devRef .tc main_arg2) = (a2 m c) :=
  (W13_of_ne m ρ c main_arg2 (by decide)).trans (k12_arg2 m ρ c)

/-! ## The regions and the shared stretches, in order -/

/-- Region 0 leaves the embedder's output. -/
theorem k4_v32 : W4 m ρ c (Proc.devRef .tc main_v32) = val_main_v39 (F := Ideal) (a0 m c) (a3 m c) (a4 m c) (a5 m c) (a6 m c) :=
  (W4_arr m ρ c 5).trans (Embed0.final (V3 m ρ) c (a0 m c) (a3 m c) (a5 m c) (a4 m c) (a6 m c)
    (k3_arg0 m ρ c) (k3_arg3 m ρ c) (k3_arg5 m ρ c) (k3_v30_entry m ρ c) (k3_v31_entry m ρ c) _
    (fun r q => Cert.ReferenceIdeal.RefDense.v39_entry (a0 m c) (a3 m c) (a4 m c) (a5 m c) (a6 m c) r q))

/-- Region 1 leaves the first layer's projection. -/
theorem k5_v33 : W5 m ρ c (Proc.devRef .tc main_v33) = val_main_v40 (F := Ideal) (a0 m c) (a3 m c) (a4 m c) (a5 m c) (a6 m c) (a7 m c) :=
  (W5_arr m ρ c 2).trans (Project1.final (V4 m ρ) c _ _ (k4_v32 m ρ c) (k4_arg7 m ρ c) _
    (fun r q => Cert.ReferenceIdeal.RefDense.v40_entry (a0 m c) (a3 m c) (a4 m c) (a5 m c) (a6 m c) (a7 m c) r q))

/-- The gather of the projected rows at the sources, the scaling by the edge norms and the scatter-add at the
    destinations are the same host operations in both programs, applied to equal projections and to the same
    edge structure: the summed messages are the reference's. -/
theorem k6_v46 : W6 m ρ c (Proc.devRef .tc main_v46) = val_main_v53 (F := Ideal) (a0 m c) (a1 m c) (a3 m c) (a4 m c) (a5 m c) (a6 m c) (a7 m c) := by
  show StableHlo.after hostOps2 (W5 m ρ c) (Proc.devRef .tc main_v46) = _
  after_results_simp
  rw [k5_v33 m ρ c, k5_v3 m ρ c, k5_v6 m ρ c, k5_v29 m ρ c]
  rfl

/-- The bias row the host reshapes for the next region, read at (0, q): the bias vector at q. -/
theorem k6_v47_entry (q : Fin 128) : W6 m ρ c (Proc.devRef .tc main_v47) (ix2 (0 : Fin 1) q) = a8 m c (ix1 q) := by
  have e : W6 m ρ c (Proc.devRef .tc main_v47) = shapeCast S1x128 (a8 m c) shapeCasts_S128_S1x128 := by
    show StableHlo.after hostOps2 (W5 m ρ c) (Proc.devRef .tc main_v47) = _
    after_results_simp
    rw [k5_arg8 m ρ c]
    rfl
  rw [e]
  exact shapeCast_a_1a_apply _ _ (0 : Fin 1) q

/-- Region 2 leaves the first layer's activations. -/
theorem k7_v48 : W7 m ρ c (Proc.devRef .tc main_v48) = val_main_v57 (F := Ideal) (a0 m c) (a1 m c) (a3 m c) (a4 m c) (a5 m c) (a6 m c) (a7 m c) (a8 m c) :=
  (W7_arr m ρ c 2).trans (Bias2.final (V6 m ρ) c _ (a8 m c) (k6_v46 m ρ c) (k6_v47_entry m ρ c) _
    (fun r q => Cert.ReferenceIdeal.RefDense.v57_entry (a0 m c) (a1 m c) (a3 m c) (a4 m c) (a5 m c) (a6 m c) (a7 m c) (a8 m c) r q))

/-- Region 3 leaves the second layer's projection. -/
theorem k8_v49 : W8 m ρ c (Proc.devRef .tc main_v49) = val_main_v58 (F := Ideal) (a0 m c) (a1 m c) (a3 m c) (a4 m c) (a5 m c) (a6 m c) (a7 m c) (a8 m c) (a9 m c) :=
  (W8_arr m ρ c 2).trans (Project3.final (V7 m ρ) c _ _ (k7_v48 m ρ c) (k7_arg9 m ρ c) _
    (fun r q => Cert.ReferenceIdeal.RefDense.v58_entry (a0 m c) (a1 m c) (a3 m c) (a4 m c) (a5 m c) (a6 m c) (a7 m c) (a8 m c) (a9 m c) r q))

/-- The gather of the projected rows at the sources, the scaling by the edge norms and the scatter-add at the
    destinations are the same host operations in both programs, applied to equal projections and to the same
    edge structure: the summed messages are the reference's. -/
theorem k9_v62 : W9 m ρ c (Proc.devRef .tc main_v62) = val_main_v71 (F := Ideal) (a0 m c) (a1 m c) (a3 m c) (a4 m c) (a5 m c) (a6 m c) (a7 m c) (a8 m c) (a9 m c) := by
  show StableHlo.after hostOps4 (W8 m ρ c) (Proc.devRef .tc main_v62) = _
  after_results_simp
  rw [k8_v49 m ρ c, k8_v3 m ρ c, k8_v6 m ρ c, k8_v29 m ρ c]
  rfl

/-- The bias row the host reshapes for the next region, read at (0, q): the bias vector at q. -/
theorem k9_v63_entry (q : Fin 128) : W9 m ρ c (Proc.devRef .tc main_v63) (ix2 (0 : Fin 1) q) = a10 m c (ix1 q) := by
  have e : W9 m ρ c (Proc.devRef .tc main_v63) = shapeCast S1x128 (a10 m c) shapeCasts_S128_S1x128 := by
    show StableHlo.after hostOps4 (W8 m ρ c) (Proc.devRef .tc main_v63) = _
    after_results_simp
    rw [k8_arg10 m ρ c]
    rfl
  rw [e]
  exact shapeCast_a_1a_apply _ _ (0 : Fin 1) q

/-- Region 4 leaves the second layer's activations. -/
theorem k10_v64 : W10 m ρ c (Proc.devRef .tc main_v64) = val_main_v75 (F := Ideal) (a0 m c) (a1 m c) (a3 m c) (a4 m c) (a5 m c) (a6 m c) (a7 m c) (a8 m c) (a9 m c) (a10 m c) :=
  (W10_arr m ρ c 2).trans (Bias4.final (V9 m ρ) c _ (a10 m c) (k9_v62 m ρ c) (k9_v63_entry m ρ c) _
    (fun r q => Cert.ReferenceIdeal.RefDense.v75_entry (a0 m c) (a1 m c) (a3 m c) (a4 m c) (a5 m c) (a6 m c) (a7 m c) (a8 m c) (a9 m c) (a10 m c) r q))

/-- Region 5 leaves the third layer's projection. -/
theorem k11_v65 : W11 m ρ c (Proc.devRef .tc main_v65) = val_main_v76 (F := Ideal) (a0 m c) (a1 m c) (a3 m c) (a4 m c) (a5 m c) (a6 m c) (a7 m c) (a8 m c) (a9 m c) (a10 m c) (a11 m c) :=
  (W11_arr m ρ c 2).trans (Project5.final (V10 m ρ) c _ _ (k10_v64 m ρ c) (k10_arg11 m ρ c) _
    (fun r q => Cert.ReferenceIdeal.RefDense.v76_entry (a0 m c) (a1 m c) (a3 m c) (a4 m c) (a5 m c) (a6 m c) (a7 m c) (a8 m c) (a9 m c) (a10 m c) (a11 m c) r q))

/-- The gather of the projected rows at the sources, the scaling by the edge norms and the scatter-add at the
    destinations are the same host operations in both programs, applied to equal projections and to the same
    edge structure: the summed messages are the reference's. -/
theorem k12_v78 : W12 m ρ c (Proc.devRef .tc main_v78) = val_main_v89 (F := Ideal) (a0 m c) (a1 m c) (a3 m c) (a4 m c) (a5 m c) (a6 m c) (a7 m c) (a8 m c) (a9 m c) (a10 m c) (a11 m c) := by
  show StableHlo.after hostOps6 (W11 m ρ c) (Proc.devRef .tc main_v78) = _
  after_results_simp
  rw [k11_v65 m ρ c, k11_v3 m ρ c, k11_v6 m ρ c, k11_v29 m ρ c]
  rfl

/-- The bias row the host reshapes for the next region, read at (0, q): the bias vector at q. -/
theorem k12_v79_entry (q : Fin 10) : W12 m ρ c (Proc.devRef .tc main_v79) (ix2 (0 : Fin 1) q) = a12 m c (ix1 q) := by
  have e : W12 m ρ c (Proc.devRef .tc main_v79) = shapeCast S1x10 (a12 m c) shapeCasts_S10_S1x10 := by
    show StableHlo.after hostOps6 (W11 m ρ c) (Proc.devRef .tc main_v79) = _
    after_results_simp
    rw [k11_arg12 m ρ c]
    rfl
  rw [e]
  exact shapeCast_a_1a_apply _ _ (0 : Fin 1) q

/-- Region 6 leaves the node logits. -/
theorem k13_v80 : W13 m ρ c (Proc.devRef .tc main_v80) = val_main_v92 (F := Ideal) (a0 m c) (a1 m c) (a3 m c) (a4 m c) (a5 m c) (a6 m c) (a7 m c) (a8 m c) (a9 m c) (a10 m c) (a11 m c) (a12 m c) :=
  (W13_arr m ρ c 2).trans (Bias6.final (V12 m ρ) c _ (a12 m c) (k12_v78 m ρ c) (k12_v79_entry m ρ c) _
    (fun r q => Cert.ReferenceIdeal.RefDense.v92_entry (a0 m c) (a1 m c) (a3 m c) (a4 m c) (a5 m c) (a6 m c) (a7 m c) (a8 m c) (a9 m c) (a10 m c) (a11 m c) (a12 m c) r q))

/-- The per-graph sums of the node logits: the same scatter-add by graph index in both programs. -/
theorem k14_v83 : W14 m ρ c (Proc.devRef .tc main_v83) = val_main_v95 (F := Ideal) (a0 m c) (a1 m c) (a2 m c) (a3 m c) (a4 m c) (a5 m c) (a6 m c) (a7 m c) (a8 m c) (a9 m c) (a10 m c) (a11 m c) (a12 m c) := by
  show StableHlo.after hostOps7 (W13 m ρ c) (Proc.devRef .tc main_v83) = _
  after_results_simp
  rw [k13_v80 m ρ c, k13_arg2 m ρ c]
  rfl

/-- The per-graph node counts, as the [500, 1] column the last region stages, read at (g, 0): the count of graph g. -/
theorem k14_v88_entry (g : Fin 500) :
    W14 m ρ c (Proc.devRef .tc main_v88) (ix2 g (0 : Fin 1)) = val_main_v99 (F := Ideal) (a2 m c) (ix1 g) := by
  have e : W14 m ρ c (Proc.devRef .tc main_v88) = shapeCast S500x1 (val_main_v99 (F := Ideal) (a2 m c)) shapeCasts_S500_S500x1 := by
    show StableHlo.after hostOps7 (W13 m ρ c) (Proc.devRef .tc main_v88) = _
    after_results_simp
    rw [k13_arg2 m ρ c]
    rfl
  rw [e]
  exact Cert.ColumnLayout.shapeCast_a_a1_apply _ _ g (0 : Fin 1)

end Cert.KernelIdeal.Chain

end
-- ==== Proof.LogSoftmaxRow.lean ====
/-
  The log-softmax of one row of ten extended reals, as both programs compute it: with M the maximum of the row
  (folded from the word 0xFF800000, minus infinity) the entry q is (row q − M) − log(Σ_j exp(row j − M)).
  This module imports no program; the two programs' results are each shown equal to this one function of the
  pooled row.
-/
import Idealize.ShloMosaic.PureOps.Ideal
import Idealize.ShloMosaic.PureOps.Ideal.Laws

noncomputable section

namespace Cert.LogSoftmaxRow

open Idealize.ShloMosaic

/-- The row's maximum, folded from minus infinity's word. -/
def rowMax (row : Fin 10 → EReal) : EReal :=
  (Finset.univ : Finset (Fin 10)).fold max (Ideal.ofBits .f32 0xFF800000#32) row

/-- Entry q of the row's log-softmax. -/
def lsm (row : Fin 10 → EReal) (q : Fin 10) : EReal :=
  (row q - rowMax row) - FloatOps.log (F := Ideal) (φ := .f32) (∑ j : Fin 10, FloatOps.exp (F := Ideal) (φ := .f32) (row j - rowMax row))

/-- The pooled row of graph g: the summed features over max(count, 1), the one word 0x3F800000. -/
def pooled (s : Fin 10 → EReal) (cnt : EReal) (j : Fin 10) : EReal :=
  Ideal.div (s j) (max cnt (Ideal.ofBits .f32 0x3F800000#32))

end Cert.LogSoftmaxRow

end
-- ==== Proof.Pool7.lean ====
/-
  Region 7: mean pooling followed by a row-wise log-softmax. The grid has one point; it stages the whole summed
  array s ([500, 10]) and the whole counts column cnt ([500, 1]) and writes back the whole [500, 10] result. With
  P(g, j) = s[g, j] / max(cnt[g, 0], 1) the pooled row of graph g and M(g) the maximum of that row (folded from the
  word 0xFF800000, minus infinity), entry (g, q) of the stored block is
      (P(g, q) − M(g)) − log(Σ_j exp(P(g, j) − M(g))),
  the lane sum starting from the zero word and so the plain sum over the ten lanes. That is the log-softmax row
  function of the pooled row, so the one block the one point writes is the whole of any array G with those entries.
-/
import proofs.«159229_j86457691668579_1_alg».proof.Proof.Gen.KernelIdeal.Frame
import proofs.«159229_j86457691668579_1_alg».proof.Proof.LibColumnLayout
import proofs.«159229_j86457691668579_1_alg».proof.Proof.LogSoftmaxRow
import Idealize.ShloMosaic.Lib.Pipeline.Value
import Idealize.ShloMosaic.Lib.ValueIdx
import Idealize.ShloMosaic.PureOps.Ideal.Laws

set_option maxRecDepth 16384

noncomputable section

namespace Cert.KernelIdeal.Pool7

open Idealize.ShloMosaic Idealize.ShloMosaic.TcCoe Idealize.SL.Sem Idealize.ShloMosaic.ValueIdx
open Idealize.ShloMosaic.Pipeline (Dat)
open Cert.KernelIdeal Cert.KernelIdeal.Gen
open Cert.LogSoftmaxRow

theorem hz : (![0, 0] : Fin 2 → Nat) = fun _ => 0 := funext fun a => by fin_cases a <;> rfl

/-! ## The body's arithmetic, read at an entry -/

/-- The index over row g with the coordinate k put back on the lane axis is (g, k). -/
theorem lift_row (h : S500x10.Reduces [1] S500) (g : Fin 500) (k : Fin 10) : h.lift (ix1 g) k = ix2 g k := by
  funext a; apply Fin.ext
  match a with
  | ⟨0, _⟩ => rfl
  | ⟨1, _⟩ => rfl

/-- The lane maximum of a block, at row g: the row's maximum folded from minus infinity's word. -/
theorem rowmax_read (x : FVec Ideal S500x10 .f32) (h : S500x10.Reduces [1] S500) (hφ : FKind.Formats .f32)
    (hacc : (0xFF800000#32 : BitVec 32) = FKind.maximumf.neutral .f32 hφ) (g : Fin 500) :
    multiReduction .maximumf [1] S500 x 0xFF800000#32 h hφ hacc (ix1 g) = rowMax (fun j => x (ix2 g j)) := by
  refine (Ideal.multiReduction_maximumf_single x _ h hφ hacc (ix1 g)).trans ?_
  have e : (x ∘ h.lift (ix1 g)) = fun j : Fin 10 => x (ix2 g j) := funext fun k => congrArg x (lift_row h g k)
  exact congrArg (fun f : Fin 10 → EReal => (Finset.univ : Finset (Fin 10)).fold max (Ideal.ofBits .f32 0xFF800000#32) f) e

/-- The lane sum of a block, at row g: the plain sum of the row's ten entries. -/
theorem rowsum_read (y : FVec Ideal S500x10 .f32) (h : S500x10.Reduces [1] S500) (hφ : FKind.Formats .f32)
    (hacc : (0x00000000#32 : BitVec 32) = FKind.add.neutral .f32 hφ) (g : Fin 500) :
    multiReduction .add [1] S500 y 0x00000000#32 h hφ hacc (ix1 g) = ∑ j : Fin 10, y (ix2 g j) := by
  refine (Ideal.multiReduction_add_single y _ h hφ hacc (ix1 g)).trans ?_
  exact Finset.sum_congr rfl fun k _ => congrArg y (lift_row h g k)

/-- Entry (g, q) of the log-softmax stage applied to any block x is the row function of row g of x: the row maximum
    kept as a column and broadcast back is the same number M at every lane of the row, and so is the logarithm of the
    lane sum of exp(x − M). -/
theorem body_entry (x : FVec Ideal S500x10 .f32) (hr : S500x10.Reduces [1] S500) (hsc : S500.ShapeCasts S500x1)
    (hb : S500x1.Broadcasts S500x10) (hφ : FKind.Formats .f32)
    (hm : (0xFF800000#32 : BitVec 32) = FKind.maximumf.neutral .f32 hφ)
    (ha : (0x00000000#32 : BitVec 32) = FKind.add.neutral .f32 hφ) (g : Fin 500) (q : Fin 10) :
    subf (subf x (broadcastTo S500x10 (shapeCast S500x1 (multiReduction .maximumf [1] S500 x 0xFF800000#32 hr hφ hm) hsc) hb))
      (broadcastTo S500x10 (log (shapeCast S500x1 (multiReduction .add [1] S500
        (exp (subf x (broadcastTo S500x10 (shapeCast S500x1 (multiReduction .maximumf [1] S500 x 0xFF800000#32 hr hφ hm) hsc) hb)))
        0x00000000#32 hr hφ ha) hsc)) hb) (ix2 g q)
    = lsm (fun j => x (ix2 g j)) q := by
  have hM : ∀ j : Fin 10, (broadcastTo S500x10 (shapeCast S500x1 (multiReduction .maximumf [1] S500 x 0xFF800000#32 hr hφ hm) hsc) hb) (ix2 g j)
      = rowMax (fun j => x (ix2 g j)) := fun j =>
    (Cert.ColumnLayout.broadcastTo_a1_ab_apply _ hb g j).trans
      ((Cert.ColumnLayout.shapeCast_a_a1_apply _ hsc g 0).trans (rowmax_read x hr hφ hm g))
  have hE : ∀ j : Fin 10, (exp (subf x (broadcastTo S500x10 (shapeCast S500x1 (multiReduction .maximumf [1] S500 x 0xFF800000#32 hr hφ hm) hsc) hb))) (ix2 g j)
      = FloatOps.exp (F := Ideal) (φ := .f32) (x (ix2 g j) - rowMax (fun j => x (ix2 g j))) := fun j =>
    congrArg (fun m : EReal => FloatOps.exp (F := Ideal) (φ := .f32) (x (ix2 g j) - m)) (hM j)
  have hS : (broadcastTo S500x10 (log (shapeCast S500x1 (multiReduction .add [1] S500
        (exp (subf x (broadcastTo S500x10 (shapeCast S500x1 (multiReduction .maximumf [1] S500 x 0xFF800000#32 hr hφ hm) hsc) hb)))
        0x00000000#32 hr hφ ha) hsc)) hb) (ix2 g q)
      = FloatOps.log (F := Ideal) (φ := .f32) (∑ j : Fin 10, FloatOps.exp (F := Ideal) (φ := .f32) (x (ix2 g j) - rowMax (fun j => x (ix2 g j)))) := by
    refine (Cert.ColumnLayout.broadcastTo_a1_ab_apply _ hb g q).trans ?_
    refine congrArg (FloatOps.log (F := Ideal) (φ := .f32)) ?_
    refine (Cert.ColumnLayout.shapeCast_a_a1_apply _ hsc g 0).trans ?_
    refine (rowsum_read _ hr hφ ha g).trans ?_
    exact Finset.sum_congr rfl fun j _ => hE j
  show (x (ix2 g q) - _) - _ = _
  rw [hM q, hS]
  rfl

/-- The pooled block read at (g, j): the summed feature over max(count, 1), the count read in the row's one column. -/
theorem pooled_read (s : Vec Ideal S500x10 .f32) (cnt : Vec Ideal S500x1 .f32) (h1 : S500x10.ShapeCasts S500x10)
    (h2 : S500x1.ShapeCasts S500x1) (hb : S500x1.Broadcasts S500x10) (g : Fin 500) (j : Fin 10) :
    (divf (F := Ideal) (φ := .f32) (shapeCast S500x10 s h1) (broadcastTo S500x10 (maximumf (F := Ideal) (φ := .f32) (shapeCast S500x1 cnt h2) (broadcast S500x1 (Scalar.ofBits .f32 0x3F800000#32))) hb)) (ix2 g j)
      = pooled (fun j => s (ix2 g j)) (cnt (ix2 g (0 : Fin 1))) j := by
  rw [shapeCast_self, shapeCast_self, divf_apply, Cert.ColumnLayout.broadcastTo_a1_ab_apply, maximumf_apply, broadcast_apply]
  rfl

/-- Entry (g, q) of the body's stored value: the log-softmax row function of graph g's pooled row. -/
theorem pay_entry (s : Vec Ideal S500x10 .f32) (cnt : Vec Ideal S500x1 .f32) (g : Fin 500) (q : Fin 10) :
    k7_pay1 (F := Ideal) s cnt (ix2 g q) = lsm (pooled (fun j => s (ix2 g j)) (cnt (ix2 g (0 : Fin 1)))) q := by
  unfold k7_pay1
  refine (body_entry _ _ _ _ _ _ _ g q).trans ?_
  exact congrArg (fun row => lsm row q) (funext fun j => pooled_read s cnt _ _ _ g j)

/-! ## The windows -/

/-- The printed index maps at the grid's point: every window sits at block (0, 0). -/
theorem idx_facts : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0 :=
  (by decide +kernel : ∀ t : Fin grid7.N, _)

variable (V : (c : Dev nD) → (b : Ref sig .tc) → Buf (Elt Ideal) ((c : Thread nD τ).loc b))

/-- The summed array's block is the whole array. -/
theorem read_sum (c : Dev nD) (t : Fin cfg7.N) (g : Fin 500) (j : Fin 10) :
    iblk7 V c 0 t (ix2 g j) = (V c main_v83 : S500x10.Idx → Elt Ideal .f32) (ix2 g j) := by
  show V c main_v83 (((cfg7.win 0).blk t).view.emb (ix2 g j)) = _
  refine congrArg _ (funext fun a => Fin.ext ?_)
  obtain ⟨e0, e1, -, -, -, -⟩ := idx_facts t
  match a with
  | ⟨0, _⟩ => show win7_0.index t (0 : Fin 2) * 500 + 1 * g.val = g.val; omega
  | ⟨1, _⟩ => show win7_0.index t (1 : Fin 2) * 10 + 1 * j.val = j.val; omega

/-- The counts column's block is the whole column. -/
theorem read_cnt (c : Dev nD) (t : Fin cfg7.N) (g : Fin 500) :
    iblk7 V c 1 t (ix2 g (0 : Fin 1)) = (V c main_v88 : S500x1.Idx → Elt Ideal .f32) (ix2 g (0 : Fin 1)) := by
  show V c main_v88 (((cfg7.win 1).blk t).view.emb (ix2 g (0 : Fin 1))) = _
  refine congrArg _ (funext fun a => Fin.ext ?_)
  obtain ⟨-, -, e2, e3, -, -⟩ := idx_facts t
  match a with
  | ⟨0, _⟩ => show win7_1.index t (0 : Fin 2) * 500 + 1 * g.val = g.val; omega
  | ⟨1, _⟩ => show win7_1.index t (1 : Fin 2) * 1 + 1 * 0 = 0; omega

/-- What the point writes back is the whole of G. -/
theorem flushed_eq (c : Dev nD) (G : S500x10.Idx → Elt Ideal .f32)
    (hG : ∀ (g : Fin 500) (q : Fin 10), G (ix2 g q) = lsm (pooled (fun j => (V c main_v83 : S500x10.Idx → Elt Ideal .f32) (ix2 g j)) ((V c main_v88 : S500x1.Idx → Elt Ideal .f32) (ix2 g (0 : Fin 1)))) q)
    (t : Fin cfg7.N) :
    (dat7 V c).flushed 2 t = ((cfg7.win 2).blk t).view.read (Elt Ideal) G := by
  show (cfg7.win 2).cut (grid7.coords t) ((dat7 V c).after 2 t) = _
  rw [after7_2]
  unfold out7_2
  rw [View.canon_unit_zero hz]
  simp only [View.ld_unit_zero (S := S500x10) hz, View.ld_unit_zero (S := S500x1) hz]
  funext i
  obtain ⟨g, q, rfl⟩ : ∃ (g : Fin 500) (q : Fin 10), i = ix2 g q := ⟨i 0, i 1, eq_ix2 i⟩
  have hemb : ((cfg7.win 2).blk t).view.emb (ix2 g q) = ix2 g q := by
    obtain ⟨-, -, -, -, e4, e5⟩ := idx_facts t
    funext a; apply Fin.ext
    match a with
    | ⟨0, _⟩ => show win7_2.index t (0 : Fin 2) * 500 + 1 * g.val = g.val; omega
    | ⟨1, _⟩ => show win7_2.index t (1 : Fin 2) * 10 + 1 * q.val = q.val; omega
  show k7_pay1 (iblk7 V c 0 t) (iblk7 V c 1 t) (ix2 g q) = G (((cfg7.win 2).blk t).view.emb (ix2 g q))
  rw [hemb, hG g q]
  refine (pay_entry (iblk7 V c 0 t) (iblk7 V c 1 t) g q).trans ?_
  rw [read_cnt V c t g]
  exact congrArg (fun row => lsm (pooled row ((V c main_v88 : S500x1.Idx → Elt Ideal .f32) (ix2 g (0 : Fin 1)))) q)
    (funext fun j => read_sum V c t g j)

/-- An index is in the point's block iff each coordinate is in the block's range. -/
theorem mem_blk (t : Fin cfg7.N) (i : S500x10.Idx) :
    i ∈ ((cfg7.win 2).blk t).view.set ↔ ∀ a : Fin 2, win7_2.index t a * S500x10.size a ≤ (i a).val ∧ (i a).val < win7_2.index t a * S500x10.size a + S500x10.size a := by
  show i ∈ ((View.whole main_v89).slice (win7_2.rect t)).set ↔ _
  rw [View.set_slice_whole, Rect.mem_set_unit]
  exact Iff.rfl

/-- The one block is the whole array. -/
theorem cover (i : S500x10.Idx) : ∃ t : Fin cfg7.N, (cfg7.win 2).flush t = true ∧ i ∈ ((cfg7.win 2).blk t).view.set := by
  have hi0 : (i 0).val < 500 := (i 0).isLt
  have hi1 : (i 1).val < 10 := (i 1).isLt
  let t : Fin cfg7.N := ⟨0, by rw [show cfg7.N = 1 from N_7]; omega⟩
  refine ⟨t, flush7_2 t, ?_⟩
  rw [mem_blk]
  obtain ⟨-, -, -, -, e4, e5⟩ := idx_facts t
  intro a
  match a with
  | ⟨0, _⟩ => show win7_2.index t (0 : Fin 2) * 500 ≤ (i 0).val ∧ (i 0).val < win7_2.index t (0 : Fin 2) * 500 + 500; omega
  | ⟨1, _⟩ => show win7_2.index t (1 : Fin 2) * 10 ≤ (i 1).val ∧ (i 1).val < win7_2.index t (1 : Fin 2) * 10 + 10; omega

/-- The region's output array after its one point is G: entry (g, q) the log-softmax row function of graph g's pooled row. -/
theorem final (c : Dev nD) (G : S500x10.Idx → Elt Ideal .f32)
    (hG : ∀ (g : Fin 500) (q : Fin 10), G (ix2 g q) = Cert.LogSoftmaxRow.lsm (Cert.LogSoftmaxRow.pooled (fun j => (V c main_v83 : S500x10.Idx → Elt Ideal .f32) (ix2 g j)) ((V c main_v88 : S500x1.Idx → Elt Ideal .f32) (ix2 g (0 : Fin 1)))) q) :
    (dat7 V c).arrAt 2 cfg7.N = G :=
  (dat7 V c).arrAt_eq_of_cover 2 G (fun t _ => flushed_eq V c G hG t) cover

end Cert.KernelIdeal.Pool7

end
-- ==== Proof.RefPool.lean ====
/-
  The reference's last stages, read at an entry: mean pooling followed by the row-wise log-softmax. With s the summed
  features ([500, 10]) and cnt the per-graph counts ([500]), the reference forms P(g, j) = s[g, j] / max(cnt[g], 1),
  takes M(g) = max(−∞, fold of max from −∞ over j of P(g, j)), and returns (P(g, q) − M(g)) − log(0 + Σ_j exp(P(g, j) − M(g))).
  The outer maximum with −∞ changes nothing, since −∞ is below any fold of max that starts from it, and the sum's initial
  zero word is the number 0; so entry (g, q) is the log-softmax row function of graph g's pooled row. The summed features
  and the counts are taken as they are: nothing here looks inside them.
-/
import proofs.«159229_j86457691668579_1_alg».proof.Proof.RefReadP
import proofs.«159229_j86457691668579_1_alg».proof.Proof.LogSoftmaxRow
import Idealize.ShloMosaic.Lib.Pipeline.Value
import Idealize.ShloMosaic.Lib.ValueIdx
import Idealize.ShloMosaic.PureOps.Ideal
import Idealize.ShloMosaic.PureOps.Ideal.Laws
import Idealize.ShloMosaic.PureOps.Reduce

set_option maxRecDepth 16384

noncomputable section

namespace Cert.ReferenceIdeal.RefPool

open Cert.ReferenceIdeal Cert.ReferenceIdeal.ReadP Idealize.ShloMosaic Idealize.ShloMosaic.ValueIdx
open Cert.LogSoftmaxRow

/-! ## Indices -/

/-- The index over row g with the coordinate k put back on the reduced axis is (g, k). -/
theorem lift_row (h : S500x10.Reduces [1] S500) (g : Fin 500) (k : Fin 10) : h.lift (ix1 g) k = ix2 g k := by
  funext a; apply Fin.ext
  match a with
  | ⟨0, _⟩ => rfl
  | ⟨1, _⟩ => rfl

/-- A per-graph number kept as a column and broadcast along the row is read, at (g, j), at graph g. -/
theorem idx_col (g : Fin 500) (j : Fin 10) : idx_main_v102 (idx_main_v103 (ix2 g j)) = ix1 g := by
  funext a; apply Fin.ext
  match a with
  | ⟨0, _⟩ => rfl

theorem idx_col_max (g : Fin 500) (j : Fin 10) : idx_main_call5_v3 (idx_main_call5_v4 (ix2 g j)) = ix1 g := by
  funext a; apply Fin.ext
  match a with
  | ⟨0, _⟩ => rfl

theorem idx_col_log (g : Fin 500) (j : Fin 10) : idx_main_call5_v8 (idx_main_call5_v10 (ix2 g j)) = ix1 g := by
  funext a; apply Fin.ext
  match a with
  | ⟨0, _⟩ => rfl

/-- The k-th term of graph g's row sum is read at (g, k). -/
theorem idx_sum (g : Fin 500) (k : Fin 10) : idx_main_call5_v7 (ix1 g) k = ix2 g k := by
  funext a; apply Fin.ext
  match a with
  | ⟨0, _⟩ => rfl
  | ⟨1, _⟩ => rfl

/-- Minus infinity's word is below any row maximum folded from it. -/
theorem neg_inf_le_rowMax (row : Fin 10 → EReal) : Ideal.ofBits .f32 0xFF800000#32 ≤ rowMax row :=
  (Finset.le_fold_max _).2 (Or.inl le_rfl)

section
variable (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x10, .f32⟩ : BufTy).Contents (Elt Ideal)) (x12 : (⟨S10, .f32⟩ : BufTy).Contents (Elt Ideal))

/-- The pooled array at (g, j): the summed feature over max(count, 1). -/
theorem v104_entry (g : Fin 500) (j : Fin 10) :
    val_main_v104 (F := Ideal) x0 x1 x2 x3 x4 x5 x6 x7 x8 x9 x10 x11 x12 (ix2 g j)
      = pooled (fun j => val_main_v95 (F := Ideal) x0 x1 x2 x3 x4 x5 x6 x7 x8 x9 x10 x11 x12 (ix2 g j)) (val_main_v99 (F := Ideal) x2 (ix1 g)) j := by
  rw [val_main_v104_apply, val_main_v103_apply, val_main_v102_apply, val_main_v101_apply, val_main_v100_apply,
    val_main_cst_18_apply, idx_col]
  rfl

/-- The reduce over the ten lanes, at graph g: the pooled row's maximum. -/
theorem v0_entry (g : Fin 500) :
    val_main_call5_v0 (F := Ideal) x0 x1 x2 x3 x4 x5 x6 x7 x8 x9 x10 x11 x12 (ix1 g)
      = rowMax (pooled (fun j => val_main_v95 (F := Ideal) x0 x1 x2 x3 x4 x5 x6 x7 x8 x9 x10 x11 x12 (ix2 g j)) (val_main_v99 (F := Ideal) x2 (ix1 g))) := by
  unfold val_main_call5_v0
  have h : S500x10.Reduces [1] S500 := by decide
  refine (Host.reduce_eq_fold_single (FloatOps.maximumf (F := Ideal) (φ := .f32)) _ _ _ h _ (ix1 g)).trans ?_
  have e : (val_main_v104 (F := Ideal) x0 x1 x2 x3 x4 x5 x6 x7 x8 x9 x10 x11 x12 ∘ h.lift (ix1 g))
      = pooled (fun j => val_main_v95 (F := Ideal) x0 x1 x2 x3 x4 x5 x6 x7 x8 x9 x10 x11 x12 (ix2 g j)) (val_main_v99 (F := Ideal) x2 (ix1 g)) :=
    funext fun k => (congrArg (val_main_v104 (F := Ideal) x0 x1 x2 x3 x4 x5 x6 x7 x8 x9 x10 x11 x12) (lift_row h g k)).trans (v104_entry x0 x1 x2 x3 x4 x5 x6 x7 x8 x9 x10 x11 x12 g k)
  exact congrArg (fun f : Fin 10 → EReal => (Finset.univ : Finset (Fin 10)).fold max (Ideal.ofBits .f32 0xFF800000#32) f) e

/-- The maximum with minus infinity leaves the row maximum as it is. -/
theorem v2_entry (g : Fin 500) :
    val_main_call5_v2 (F := Ideal) x0 x1 x2 x3 x4 x5 x6 x7 x8 x9 x10 x11 x12 (ix1 g)
      = rowMax (pooled (fun j => val_main_v95 (F := Ideal) x0 x1 x2 x3 x4 x5 x6 x7 x8 x9 x10 x11 x12 (ix2 g j)) (val_main_v99 (F := Ideal) x2 (ix1 g))) := by
  rw [val_main_call5_v2_apply, val_main_call5_v1_apply, val_main_call5_cst_0_apply, v0_entry]
  exact max_eq_right (neg_inf_le_rowMax _)

/-- The shifted row at (g, j): the pooled entry less the row maximum. -/
theorem v5_entry (g : Fin 500) (j : Fin 10) :
    val_main_call5_v5 (F := Ideal) x0 x1 x2 x3 x4 x5 x6 x7 x8 x9 x10 x11 x12 (ix2 g j)
      = pooled (fun j => val_main_v95 (F := Ideal) x0 x1 x2 x3 x4 x5 x6 x7 x8 x9 x10 x11 x12 (ix2 g j)) (val_main_v99 (F := Ideal) x2 (ix1 g)) j
        - rowMax (pooled (fun j => val_main_v95 (F := Ideal) x0 x1 x2 x3 x4 x5 x6 x7 x8 x9 x10 x11 x12 (ix2 g j)) (val_main_v99 (F := Ideal) x2 (ix1 g))) := by
  rw [val_main_call5_v5_apply, val_main_call5_v4_apply, val_main_call5_v3_apply, idx_col_max, v2_entry, v104_entry]
  rfl

/-- The row sum at graph g: the zero word is the number zero, so it is the plain sum of the ten exponentials. -/
theorem v7_entry (g : Fin 500) :
    val_main_call5_v7 (F := Ideal) x0 x1 x2 x3 x4 x5 x6 x7 x8 x9 x10 x11 x12 (ix1 g)
      = ∑ j : Fin 10, FloatOps.exp (F := Ideal) (φ := .f32)
          (pooled (fun j => val_main_v95 (F := Ideal) x0 x1 x2 x3 x4 x5 x6 x7 x8 x9 x10 x11 x12 (ix2 g j)) (val_main_v99 (F := Ideal) x2 (ix1 g)) j
            - rowMax (pooled (fun j => val_main_v95 (F := Ideal) x0 x1 x2 x3 x4 x5 x6 x7 x8 x9 x10 x11 x12 (ix2 g j)) (val_main_v99 (F := Ideal) x2 (ix1 g)))) := by
  rw [val_main_call5_v7_apply, val_main_call5_cst_1_apply]
  refine (congrArg (· + _) Ideal.ofBits_zero_f32).trans ?_
  rw [zero_add]
  refine Finset.sum_congr rfl fun k _ => ?_
  rw [idx_sum, val_main_call5_v6_apply, v5_entry]
  rfl

end

/-- Entry (g, q) of the reference's result: the log-softmax row function of graph g's pooled row, the summed features
    and the counts taken as they are. -/
theorem v105_entry (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x10, .f32⟩ : BufTy).Contents (Elt Ideal)) (x12 : (⟨S10, .f32⟩ : BufTy).Contents (Elt Ideal)) (g : Fin 500) (q : Fin 10) :
    val_main_v105 (F := Ideal) x0 x1 x2 x3 x4 x5 x6 x7 x8 x9 x10 x11 x12 (ix2 g q)
      = Cert.LogSoftmaxRow.lsm (Cert.LogSoftmaxRow.pooled (fun j => val_main_v95 (F := Ideal) x0 x1 x2 x3 x4 x5 x6 x7 x8 x9 x10 x11 x12 (ix2 g j)) (val_main_v99 (F := Ideal) x2 (ix1 g))) q := by
  rw [val_main_v105_apply, v5_entry, val_main_call5_v10_apply, val_main_call5_v9_apply, val_main_call5_v8_apply,
    idx_col_log, v7_entry]
  rfl

end Cert.ReferenceIdeal.RefPool

end
-- ==== Proof.ChainOut.lean ====
/-
  The last region, and with it the kernel's result. Region 7 has one grid point whose blocks are the whole arrays:
  it stages the per-graph sums and the per-graph counts and leaves, at (g, q), the log-softmax of graph g's pooled
  row at q. The reference's last stages compute the same function of the same sums and counts, so the kernel's
  result array is the reference's result stage of the argument arrays.
-/
import proofs.«159229_j86457691668579_1_alg».proof.Proof.Chain
import proofs.«159229_j86457691668579_1_alg».proof.Proof.Pool7
import proofs.«159229_j86457691668579_1_alg».proof.Proof.RefPool

set_option maxRecDepth 16384

noncomputable section

namespace Cert.KernelIdeal.Chain

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal.ReadP

variable (m : (ℓ : Loc nD τ sig) → Buf (Elt Ideal) ℓ) (ρ : Dev nD → PrngReg) (c : Dev nD)

/-- The kernel's result array at the last boundary is the reference's result stage of the argument arrays. -/
theorem k15_v89 : W15 m ρ c (Proc.devRef .tc main_v89) = val_main_v105 (F := Ideal) (a0 m c) (a1 m c) (a2 m c) (a3 m c) (a4 m c) (a5 m c) (a6 m c) (a7 m c) (a8 m c) (a9 m c) (a10 m c) (a11 m c) (a12 m c) :=
  (W15_arr m ρ c 2).trans (Pool7.final (V14 m ρ) c _ (fun g q => by
    refine (Cert.ReferenceIdeal.RefPool.v105_entry (a0 m c) (a1 m c) (a2 m c) (a3 m c) (a4 m c) (a5 m c) (a6 m c) (a7 m c) (a8 m c) (a9 m c) (a10 m c) (a11 m c) (a12 m c) g q).trans ?_
    exact congrArg₂ (fun row cnt => Cert.LogSoftmaxRow.lsm (Cert.LogSoftmaxRow.pooled row cnt) q)
      (funext fun j => (congrFun (k14_v83 m ρ c) (ix2 g j)).symm) (k14_v88_entry m ρ c g).symm))

end Cert.KernelIdeal.Chain

end
-- ==== Proof.lean ====
/-
  The certificate's claim: a three-layer graph convolution network with a two-layer embedder and mean pooling,
  written as eight Pallas regions around shared host gathers and scatter-adds, against its jnp reference.

  The three frames are the generated frame certificates of the two kernel programs and the reference's run with its
  result dropped. The idealization rewrote nothing, so the preservation claim is trivial. The algebraic claim: run at
  the instance where floats are extended reals, the kernel's result array ends at the last segment boundary's
  contents (KRun), and those contents are the reference's result stage of the argument arrays (Chain, ChainOut):
  the embedder and the three projections are plain sums on both sides (the kernel's bf16 casts and row tiling change
  nothing there), each bias and ReLU is the same entrywise function, the edge structure, the gather / scale /
  scatter-add of each layer and the pooling sums are the same host operations applied to equal operands, and the
  final region is the log-softmax of the pooled rows as the reference computes it. No step uses finiteness of
  the inputs. The reference's run ends at that same stage of its own arguments, which agree with the kernel's.
-/
import proofs.«159229_j86457691668579_1_alg».proof.Defs
import proofs.«159229_j86457691668579_1_alg».proof.Proof.Gen.Kernel
import proofs.«159229_j86457691668579_1_alg».proof.Proof.Gen.Kernel.Skeleton
import proofs.«159229_j86457691668579_1_alg».proof.Proof.Gen.Kernel.Launch
import proofs.«159229_j86457691668579_1_alg».proof.Proof.Gen.Kernel.Points
import proofs.«159229_j86457691668579_1_alg».proof.Proof.Gen.Kernel.Frame
import proofs.«159229_j86457691668579_1_alg».proof.Proof.Gen.KernelIdeal
import proofs.«159229_j86457691668579_1_alg».proof.Proof.Gen.KernelIdeal.Skeleton
import proofs.«159229_j86457691668579_1_alg».proof.Proof.Gen.KernelIdeal.Launch
import proofs.«159229_j86457691668579_1_alg».proof.Proof.Gen.KernelIdeal.Points
import proofs.«159229_j86457691668579_1_alg».proof.Proof.Gen.KernelIdeal.Frame
import proofs.«159229_j86457691668579_1_alg».proof.Proof.Gen.ReferenceIdeal
import proofs.«159229_j86457691668579_1_alg».proof.Proof.Gen.Pre_finite_inputs
import proofs.«159229_j86457691668579_1_alg».proof.Proof.RefRunP
import proofs.«159229_j86457691668579_1_alg».proof.Proof.RefReadP
import proofs.«159229_j86457691668579_1_alg».proof.Proof.KRun
import proofs.«159229_j86457691668579_1_alg».proof.Proof.ChainOut
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and keeps its arguments: the generated frame. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end with the reference's result stage of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v105 (F := Ideal) (Cert.KernelIdeal.Chain.a0 m c) (Cert.KernelIdeal.Chain.a1 m c) (Cert.KernelIdeal.Chain.a2 m c) (Cert.KernelIdeal.Chain.a3 m c) (Cert.KernelIdeal.Chain.a4 m c) (Cert.KernelIdeal.Chain.a5 m c) (Cert.KernelIdeal.Chain.a6 m c) (Cert.KernelIdeal.Chain.a7 m c) (Cert.KernelIdeal.Chain.a8 m c) (Cert.KernelIdeal.Chain.a9 m c) (Cert.KernelIdeal.Chain.a10 m c) (Cert.KernelIdeal.Chain.a11 m c) (Cert.KernelIdeal.Chain.a12 m c), ?_, ?_⟩
  · exact (θ_run Cert.KernelIdeal.defs _ _).mono
      (fun _ h c => ⟨(h c).1.trans (Cert.KernelIdeal.Chain.k15_v89 m ρ c), (h c).2⟩) (Cert.KernelIdeal.KRun.run_out m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.ReadP.val_main_v105_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
